-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S128 .f32) (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg13 : FVec F S128x128 .f32) (main_arg14 : FVec F S128 .f32) (main_arg15 : FVec F S128x128 .f32) (main_arg16 : FVec F S128 .f32) (main_arg17 : FVec F S128x64 .f32) (main_arg18 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S64x128 : Shape := ⟨2, ![64, 128]⟩
abbrev S100000x1 : Shape := ⟨2, ![100000, 1]⟩
abbrev S64x1 : Shape := ⟨2, ![64, 1]⟩
abbrev S1x64 : Shape := ⟨2, ![1, 64]⟩
abbrev S64x64 : Shape := ⟨2, ![64, 64]⟩

abbrev nBuf : Space → Nat
  | .hbm => 90
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S1x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S1x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S1x128, .f32⟩
  | .hbm, ⟨69, _⟩ => ⟨S1x128, .f32⟩
  | .hbm, ⟨70, _⟩ => ⟨S100000x128, .f32⟩
  | .hbm, ⟨71, _⟩ => ⟨S_, .f32⟩
  | .hbm, ⟨72, _⟩ => ⟨S64x128, .f32⟩
  | .hbm, ⟨73, _⟩ => ⟨S100000x1, .i32⟩
  | .hbm, ⟨74, _⟩ => ⟨S64x128, .f32⟩
  | .hbm, ⟨75, _⟩ => ⟨S_, .f32⟩
  | .hbm, ⟨76, _⟩ => ⟨S100000, .f32⟩
  | .hbm, ⟨77, _⟩ => ⟨S_, .f32⟩
  | .hbm, ⟨78, _⟩ => ⟨S64, .f32⟩
  | .hbm, ⟨79, _⟩ => ⟨S100000x1, .i32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S64x1, .f32⟩
  | .hbm, ⟨85, _⟩ => ⟨S64x128, .f32⟩
  | .hbm, ⟨86, _⟩ => ⟨S64x128, .f32⟩
  | .hbm, ⟨87, _⟩ => ⟨S1x128, .f32⟩
  | .hbm, ⟨88, _⟩ => ⟨S1x64, .f32⟩
  | .hbm, ⟨89, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S64x128, .f32⟩
  | .local _ .vmem, ⟨31, _⟩ => ⟨S128x128, .f32⟩
  | .local _ .vmem, ⟨32, _⟩ => ⟨S1x128, .f32⟩
  | .local _ .vmem, ⟨33, _⟩ => ⟨S128x64, .f32⟩
  | .local _ .vmem, ⟨34, _⟩ => ⟨S1x64, .f32⟩
  | .local _ .vmem, ⟨35, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S64x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S64x128 : Shape := ⟨2, ![64, 128]⟩
abbrev S100000x1 : Shape := ⟨2, ![100000, 1]⟩
abbrev S64x1 : Shape := ⟨2, ![64, 1]⟩
abbrev S64x64 : Shape := ⟨2, ![64, 64]⟩
abbrev S1x64 : Shape := ⟨2, ![1, 64]⟩

abbrev nBuf : Space → Nat
  | .hbm => 154
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x64, .f32⟩
  | 18 => ⟨S64, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S_, .f32⟩
  | 123 => ⟨S64x128, .f32⟩
  | 124 => ⟨S100000x1, .i32⟩
  | 125 => ⟨S64x128, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S64, .f32⟩
  | 2 => ⟨S100000x1, .i32⟩
  | 3 => ⟨S64, .f32⟩
  | 4 => ⟨S_, .f32⟩
  | 5 => ⟨S64, .f32⟩
  | 6 => ⟨S64, .f32⟩
  | 7 => ⟨S64x1, .f32⟩
  | 8 => ⟨S64x128, .f32⟩
  | 9 => ⟨S64x128, .f32⟩
  | 10 => ⟨S64x128, .f32⟩
  | 11 => ⟨S1x128, .f32⟩
  | 12 => ⟨S64x128, .f32⟩
  | 13 => ⟨S64x128, .f32⟩
  | 14 => ⟨S64x128, .f32⟩
  | 15 => ⟨S64x128, .f32⟩
  | 16 => ⟨S_, .f32⟩
  | 17 => ⟨S64x128, .f32⟩
  | 18 => ⟨S64x128, .f32⟩
  | 19 => ⟨S_, .f32⟩
  | 20 => ⟨S64x128, .f32⟩
  | 21 => ⟨S64x128, .f32⟩
  | 22 => ⟨S64x64, .f32⟩
  | 23 => ⟨S1x64, .f32⟩
  | 24 => ⟨S64x64, .f32⟩
  | 25 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_cst : Ref sig .tc := ⟨.hbm, 53, rfl⟩
abbrev main_call0_v0 : Ref sig .tc := ⟨.hbm, 54, rfl⟩
abbrev main_v29 : Ref sig .tc := ⟨.hbm, 55, rfl⟩
abbrev main_c_3 : Ref sig .tc := ⟨.hbm, 56, rfl⟩
abbrev main_v30 : Ref sig .tc := ⟨.hbm, 57, rfl⟩
abbrev main_v31 : Ref sig .tc := ⟨.hbm, 58, rfl⟩
abbrev main_c_4 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_6 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_v55 : Ref sig .tc := ⟨.hbm, 88, rfl⟩
abbrev main_c_8 : Ref sig .tc := ⟨.hbm, 89, rfl⟩
abbrev main_v56 : Ref sig .tc := ⟨.hbm, 90, rfl⟩
abbrev main_v57 : Ref sig .tc := ⟨.hbm, 91, rfl⟩
abbrev main_c_9 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_11 : Ref sig .tc := ⟨.hbm, 109, rfl⟩
abbrev main_v73 : Ref sig .tc := ⟨.hbm, 110, rfl⟩
abbrev main_v74 : Ref sig .tc := ⟨.hbm, 111, rfl⟩
abbrev main_cst_12 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call2_cst : Ref sig .tc := ⟨.hbm, 119, rfl⟩
abbrev main_call2_v0 : Ref sig .tc := ⟨.hbm, 120, rfl⟩
abbrev main_v81 : Ref sig .tc := ⟨.hbm, 121, rfl⟩
abbrev main_cst_13 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_14 : Ref sig .tc := ⟨.hbm, 126, rfl⟩
abbrev main_v85 : Ref sig .tc := ⟨.hbm, 127, rfl⟩
abbrev main_cst_15 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_16 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_17 : Ref sig .tc := ⟨.hbm, 144, rfl⟩
abbrev main_v100 : Ref sig .tc := ⟨.hbm, 145, rfl⟩
abbrev main_v101 : Ref sig .tc := ⟨.hbm, 146, rfl⟩
abbrev main_cst_18 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.KRun.lean ====
/-
  The idealized kernel program's run with its result named.

  The program is four Pallas regions among four stretches of host operations. Its buffer contents at the eight segment
  boundaries are a fold from the launch memory: a stretch's operations applied to what was there, a region's arrays
  replaced by what its write-backs leave. Every weakly fair execution terminates, nothing faulting, with every unscoped
  buffer at the last boundary's contents; read at the result buffer this names the program's result, the last region's
  output array after its one grid point, and read at an argument's buffer it gives back the launch contents.
-/
import proofs.«102653_j61186104099701_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, with the
    result buffer at the last boundary's contents and every argument array as launched. -/
theorem run_value : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)

end Cert.KernelIdeal.Run

end
-- ==== Proof.Spec.lean ====
/-
  The network both programs compute, as whole-array functions of the argument arrays, for any float values.

  A graph network over 100000 nodes with 128 features and 1600000 directed edges. The edge list is a [2, 1600000] array
  of node numbers: row 0 holds each edge's source node, row 1 its destination node. One layer maps the node features h to
      relu (sigmoid ((h + agg h) · W1 + b1) · W2 + b2),
  where row i of agg h is the sum of the rows h[src e] over the edges e whose destination is i (a row gather followed by a
  scatter-add into zeros; a negative source number is read from the end, as jnp indexing does). Three layers are applied
  in turn. The nodes are then averaged per graph: row g of the pooled array is the sum of the rows of the nodes whose
  graph number is g, divided by the larger of their count and 1. A two-layer head follows,
      sigmoid (pooled · V1 + c1) · V2 + c2,
  giving a [64, 64] array. The sigmoid is spelled 1 / (1 + exp (-x)), a bias vector is laid out as one row and then
  repeated down the rows. Every definition here is a composition of the host operations, so each one is a single
  function of whole arrays; nothing here depends on how the rows are cut into blocks.
-/
import proofs.«102653_j61186104099701_1_alg».proof.Proof.Gen.ReferenceIdeal

noncomputable section

namespace Cert.Spec

open Cert.ReferenceIdeal Cert.ReferenceIdeal.Gen Idealize.ShloMosaic

variable {F : FTy → Type} [FloatOps F]

/-- An array of 32-bit floats of shape `S`. -/
abbrev FArr (F : FTy → Type) [FloatOps F] (S : Shape) : Type := (⟨S, .f32⟩ : BufTy).Contents (Elt F)
/-- An array of 32-bit integers of shape `S`. -/
abbrev IArr (F : FTy → Type) [FloatOps F] (S : Shape) : Type := (⟨S, .i32⟩ : BufTy).Contents (Elt F)

/-! ## The edge list's two rows -/

/-- Row 0 of the edge list: each edge's source node, as a vector. -/
def srcRaw (e : IArr F S2x1600000) : IArr F S1600000 :=
  shapeCast S1600000 (extractStridedSlice S1x1600000 ![0, 0] e slices_S2x1600000_S1x1600000_0_0) shapeCasts_S1x1600000_S1600000

/-- Row 1 of the edge list: each edge's destination node, as a vector. -/
def dstRaw (e : IArr F S2x1600000) : IArr F S1600000 :=
  shapeCast S1600000 (extractStridedSlice S1x1600000 ![1, 0] e slices_S2x1600000_S1x1600000_1_0) shapeCasts_S1x1600000_S1600000

/-! ## Neighbour sums -/

/-- Row i is the sum of the rows `h[s e]` over the edges `e` with `d e = i`: the rows of `h` gathered at the source
    numbers (a negative one counted from the end) and scatter-added into zeros at the destination numbers. -/
def aggOf (h : FArr F S100000x128) (s d : IArr F S1600000) : FArr F S100000x128 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-! ## A layer on all the nodes -/

/-- A bias vector of length 128 laid out as one row. -/
def row128 (b : FArr F S128) : FArr F S1x128 := broadcastInDim S1x128 ![1] bcast_S128_S1x128_1 b

/-- A bias vector of length 64 laid out as one row. -/
def row64 (b : FArr F S64) : FArr F S1x64 := broadcastInDim S1x64 ![1] bcast_S64_S1x64_1 b

/-- A bias vector of length 128 reshaped to one row (the other spelling of `row128`). -/
def asRow128 (b : FArr F S128) : FArr F S1x128 := shapeCast S1x128 b (by decide)

/-- A bias vector of length 64 reshaped to one row (the other spelling of `row64`). -/
def asRow64 (b : FArr F S64) : FArr F S1x64 := shapeCast S1x64 b (by decide)

/-- `z · W + r`, the one row `r` repeated down the 100000 rows. -/
def dense (z : FArr F S100000x128) (w : FArr F S128x128) (r : FArr F S1x128) : FArr F S100000x128 :=
  addf (Host.dotGeneral dot_S100000x128_S128x128_S100000x128_1_0_0_1_n_n none z w)
    (broadcastInDim S100000x128 ![0, 1] bcast_S1x128_S100000x128_0_1 r)

/-- `1 / (1 + exp (-x))`, entry by entry. -/
def sigm (x : FArr F S100000x128) : FArr F S100000x128 :=
  Host.divf (broadcastInDim S100000x128 ![] bcast_S_S100000x128 (constant (F := F) S_ .f32 0x3F800000#32))
    (addf (broadcastInDim S100000x128 ![] bcast_S_S100000x128 (constant (F := F) S_ .f32 0x3F800000#32)) (Host.exp (Host.negf x)))

/-- The larger of `x` and 0, entry by entry. -/
def relu (x : FArr F S100000x128) : FArr F S100000x128 :=
  maximumf x (broadcastInDim S100000x128 ![] bcast_S_S100000x128 (constant (F := F) S_ .f32 0x00000000#32))

/-- The layer's dense part on the node features `h` and their neighbour sums `a`, the two biases given as rows:
    `relu (sigmoid ((h + a) · W1 + r1) · W2 + r2)`. -/
def mlp (h a : FArr F S100000x128) (w1 : FArr F S128x128) (r1 : FArr F S1x128) (w2 : FArr F S128x128) (r2 : FArr F S1x128) :
    FArr F S100000x128 :=
  relu (dense (sigm (dense (addf h a) w1 r1)) w2 r2)

/-- One layer: the dense part on `h` and its neighbour sums along the edges `s → d`. -/
def layer (h : FArr F S100000x128) (s d : IArr F S1600000) (w1 : FArr F S128x128) (b1 : FArr F S128) (w2 : FArr F S128x128)
    (b2 : FArr F S128) : FArr F S100000x128 :=
  mlp h (aggOf h s d) w1 (row128 b1) w2 (row128 b2)

/-! ## The mean over each graph's nodes -/

/-- Row g: the sum of the rows of `h` whose graph number is g, divided by the larger of their count and 1. -/
def pool (h : FArr F S100000x128) (g : IArr F S100000) : FArr F S64x128 :=
  Host.divf
    (Host.scatterAdd scatter_S64x128_S100000x1_S100000x128_1_0_0_1
      (broadcastInDim S64x128 ![] bcast_S_S64x128 (constant (F := F) S_ .f32 0x00000000#32))
      (broadcastInDim S100000x1 ![0] bcast_S100000_S100000x1_0 g) h)
    (broadcastInDim S64x128 ![0, 1] bcast_S64x1_S64x128_0_1 (broadcastInDim S64x1 ![0] bcast_S64_S64x1_0
      (maximumf
        (Host.scatterAdd scatter_S64_S100000x1_S100000_n_0_0_1
          (broadcastInDim S64 ![] bcast_S_S64 (constant (F := F) S_ .f32 0x00000000#32))
          (broadcastInDim S100000x1 ![0] bcast_S100000_S100000x1_0 g)
          (broadcastInDim S100000 ![] bcast_S_S100000 (constant (F := F) S_ .f32 0x3F800000#32)))
        (broadcastInDim S64 ![] bcast_S_S64 (constant (F := F) S_ .f32 0x3F800000#32)))))

/-! ## The head -/

/-- `sigmoid (p · V1 + r1) · V2 + r2` on the 64 pooled rows, the two biases given as rows. -/
def head (p : FArr F S64x128) (w1 : FArr F S128x128) (r1 : FArr F S1x128) (w2 : FArr F S128x64) (r2 : FArr F S1x64) : FArr F S64x64 :=
  addf
    (Host.dotGeneral dot_S64x128_S128x64_S64x64_1_0_0_1_n_n none
      (Host.divf (broadcastInDim S64x128 ![] bcast_S_S64x128 (constant (F := F) S_ .f32 0x3F800000#32))
        (addf (broadcastInDim S64x128 ![] bcast_S_S64x128 (constant (F := F) S_ .f32 0x3F800000#32))
          (Host.exp (Host.negf
            (addf (Host.dotGeneral dot_S64x128_S128x128_S64x128_1_0_0_1_n_n none p w1)
              (broadcastInDim S64x128 ![0, 1] bcast_S1x128_S64x128_0_1 r1))))))
      w2)
    (broadcastInDim S64x64 ![0, 1] bcast_S1x64_S64x64_0_1 r2)

/-! ## The whole network -/

/-- Three layers along the edge list `e`, the mean over each graph `g`, the head. -/
def out (x : FArr F S100000x128) (e : IArr F S2x1600000) (g : IArr F S100000)
    (a1 : FArr F S128x128) (a2 : FArr F S128) (a3 : FArr F S128x128) (a4 : FArr F S128)
    (b1 : FArr F S128x128) (b2 : FArr F S128) (b3 : FArr F S128x128) (b4 : FArr F S128)
    (c1 : FArr F S128x128) (c2 : FArr F S128) (c3 : FArr F S128x128) (c4 : FArr F S128)
    (v1 : FArr F S128x128) (u1 : FArr F S128) (v2 : FArr F S128x64) (u2 : FArr F S64) : FArr F S64x64 :=
  head
    (pool
      (layer (layer (layer x (srcRaw e) (dstRaw e) a1 a2 a3 a4) (srcRaw e) (dstRaw e) b1 b2 b3 b4) (srcRaw e) (dstRaw e) c1 c2 c3 c4)
      g)
    v1 (row128 u1) v2 (row64 u2)

end Cert.Spec

end
-- ==== Proof.LibRowReads.lean ====
/-
  Layout operations on parameter tables and weight matrices, read at an index, over literal shapes.

  * row `l` of an [R, C] table taken as a [C] vector (a one-row slice, then a reshape) at `j` is the table at (l, j);
  * slab `l` of an [R, K, C] stack taken as a [K, C] matrix at (k, j) is the stack at (l, k, j);
  * a [C] vector laid as a [1, C] row and broadcast down N rows reads, at (n, j), the vector at j; the same vector
    reshaped to a [1, C] row reads, at (0, j), the vector at j;
  * a scalar constant broadcast to any shape reads the constant's value everywhere;
  * two [K, C] matrices laid side by side as [K, C + C] read the left one at columns below C and the right one above;
  * a column band [0, C) or [C, C + C) of an [N, C + C] array read at (n, j).
  The side conditions of the operations are hypotheses, so the lemmas apply under any proofs of them.
-/
import Idealize.ShloMosaic.Lib.Pipeline.Value
import Idealize.ShloMosaic.Lib.ValueIdx
import Idealize.ShloMosaic.PureOps.Ideal

noncomputable section

namespace Cert.LibRowReads

open Idealize.ShloMosaic Idealize.ShloMosaic.ValueIdx

variable {α : Type}

/-- Row `l` of an [R, C] table, as a [C] vector, at `j`. -/
theorem row_read {R C : Nat} (l : Nat) (hl : l < R) (h : (⟨2, ![R, C]⟩ : Shape).Slices ![l, 0] ⟨2, ![1, C]⟩)
    (hc : (⟨2, ![1, C]⟩ : Shape).ShapeCasts ⟨1, ![C]⟩) (a : (⟨2, ![R, C]⟩ : Shape).Idx → α) (j : Fin C) :
    shapeCast ⟨1, ![C]⟩ (extractStridedSlice ⟨2, ![1, C]⟩ ![l, 0] a h) hc (ix1 j) = a (ix2 ⟨l, hl⟩ j) := by
  refine (shapeCast_apply _ hc (ix1 j) (ix2 (0 : Fin 1) j) ?_).trans ?_
  · rw [Shape.rowMajor_val_two, Shape.rowMajor_val_one]
    show 0 * C + j.val = j.val
    omega
  · refine extractStridedSlice_apply ![l, 0] a h (ix2 (0 : Fin 1) j) (ix2 ⟨l, hl⟩ j) (fun ax => ?_)
    match ax with
    | ⟨0, _⟩ => show l = l + 0; omega
    | ⟨1, _⟩ => show j.val = 0 + j.val; omega

/-- Slab `l` of an [R, K, C] stack, as a [K, C] matrix, at (k, j). -/
theorem slab_read {R K C : Nat} (l : Nat) (hl : l < R) (h : (⟨3, ![R, K, C]⟩ : Shape).Slices ![l, 0, 0] ⟨3, ![1, K, C]⟩)
    (hc : (⟨3, ![1, K, C]⟩ : Shape).ShapeCasts ⟨2, ![K, C]⟩) (a : (⟨3, ![R, K, C]⟩ : Shape).Idx → α) (k : Fin K) (j : Fin C) :
    shapeCast ⟨2, ![K, C]⟩ (extractStridedSlice ⟨3, ![1, K, C]⟩ ![l, 0, 0] a h) hc (ix2 k j) = a (ix3 ⟨l, hl⟩ k j) := by
  refine (shapeCast_apply _ hc (ix2 k j) (ix3 (0 : Fin 1) k j) ?_).trans ?_
  · rw [Shape.rowMajor_val_three, Shape.rowMajor_val_two]
    show (0 * K + k.val) * C + j.val = k.val * C + j.val
    simp
  · refine extractStridedSlice_apply ![l, 0, 0] a h (ix3 (0 : Fin 1) k j) (ix3 ⟨l, hl⟩ k j) (fun ax => ?_)
    match ax with
    | ⟨0, _⟩ => show l = l + 0; omega
    | ⟨1, _⟩ => show k.val = 0 + k.val; omega
    | ⟨2, _⟩ => show j.val = 0 + j.val; omega

/-- A [C] vector reshaped to a [1, C] row, at (0, j). -/
theorem asRow_read {C : Nat} (hc : (⟨1, ![C]⟩ : Shape).ShapeCasts ⟨2, ![1, C]⟩) (v : (⟨1, ![C]⟩ : Shape).Idx → α) (j : Fin C) :
    shapeCast ⟨2, ![1, C]⟩ v hc (ix2 (0 : Fin 1) j) = v (ix1 j) := by
  refine shapeCast_apply v hc (ix2 (0 : Fin 1) j) (ix1 j) ?_
  rw [Shape.rowMajor_val_two, Shape.rowMajor_val_one]
  show j.val = 0 * C + j.val
  omega

/-- A [C] vector broadcast down N rows (through a [1, C] row), at (n, j). -/
theorem down_read {N C : Nat} (hC : C ≠ 1) (h1 : (⟨1, ![C]⟩ : Shape).BroadcastsInDim ⟨2, ![1, C]⟩ ![1])
    (h2 : (⟨2, ![1, C]⟩ : Shape).BroadcastsInDim ⟨2, ![N, C]⟩ ![0, 1]) (v : (⟨1, ![C]⟩ : Shape).Idx → α) (n : Fin N) (j : Fin C) :
    broadcastInDim ⟨2, ![N, C]⟩ ![0, 1] h2 (broadcastInDim ⟨2, ![1, C]⟩ ![1] h1 v) (ix2 n j) = v (ix1 j) := by
  refine (broadcastInDim_apply ![0, 1] h2 _ (ix2 n j) (ix2 (0 : Fin 1) j) (fun ax => ?_)).trans ?_
  · match ax with
    | ⟨0, _⟩ => show (0 : Nat) = if (1 : Nat) = 1 then 0 else n.val; simp
    | ⟨1, _⟩ => show j.val = if C = 1 then 0 else j.val; rw [if_neg hC]
  · refine broadcastInDim_apply ![1] h1 v (ix2 (0 : Fin 1) j) (ix1 j) (fun ax => ?_)
    match ax with
    | ⟨0, _⟩ => show j.val = if C = 1 then 0 else j.val; rw [if_neg hC]

/-- A scalar broadcast to a shape reads the scalar everywhere. -/
theorem splat_read {t : Shape} (h : (⟨0, ![]⟩ : Shape).BroadcastsInDim t ![]) (v : (⟨0, ![]⟩ : Shape).Idx → α) (i : t.Idx) :
    broadcastInDim t ![] h v i = v ix0 :=
  broadcastInDim_apply ![] h v i ix0 (fun ax => ax.elim0)

/-- Two [K, C] matrices side by side, at a column of the left one. -/
theorem pair_left_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val < C + C) :
    concatenate ⟨2, ![K, C + C]⟩ 1 [⟨⟨2, ![K, C]⟩, a⟩, ⟨⟨2, ![K, C]⟩, b⟩] h (ix2 k ⟨j.val, hj⟩) = a (ix2 k j) := by
  refine concatenate_pair_apply_left 1 a b h (ix2 k ⟨j.val, hj⟩) rfl (ix2 k j) (fun ax => ?_)
  match ax with
  | ⟨0, _⟩ => rfl
  | ⟨1, _⟩ => rfl

/-- Two [K, C] matrices side by side, at a column of the right one. -/
theorem pair_right_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val + C < C + C) :
    concatenate ⟨2, ![K, C + C]⟩ 1 [⟨⟨2, ![K, C]⟩, a⟩, ⟨⟨2, ![K, C]⟩, b⟩] h (ix2 k ⟨j.val + C, hj⟩) = b (ix2 k j) := by
  refine concatenate_pair_apply_right 1 a b h (ix2 k ⟨j.val + C, hj⟩) rfl rfl (ix2 k j) (fun ax hne => ?_) ?_
  · match ax with
    | ⟨0, _⟩ => rfl
    | ⟨1, _⟩ => exact absurd rfl hne
  · rfl

/-- The left column band of an [N, C + C] array, at (n, j). -/
theorem band_left_read {N C : Nat} (h : (⟨2, ![N, C + C]⟩ : Shape).Slices ![0, 0] ⟨2, ![N, C]⟩)
    (x : (⟨2, ![N, C + C]⟩ : Shape).Idx → α) (n : Fin N) (j : Fin C) (hj : j.val < C + C) :
    extractStridedSlice ⟨2, ![N, C]⟩ ![0, 0] x h (ix2 n j) = x (ix2 n ⟨j.val, hj⟩) := by
  refine extractStridedSlice_apply ![0, 0] x h (ix2 n j) (ix2 n ⟨j.val, hj⟩) (fun ax => ?_)
  match ax with
  | ⟨0, _⟩ => show n.val = 0 + n.val; omega
  | ⟨1, _⟩ => show j.val = 0 + j.val; omega

/-- The right column band of an [N, C + C] array, at (n, j). -/
theorem band_right_read {N C : Nat} (h : (⟨2, ![N, C + C]⟩ : Shape).Slices ![0, C] ⟨2, ![N, C]⟩)
    (x : (⟨2, ![N, C + C]⟩ : Shape).Idx → α) (n : Fin N) (j : Fin C) (hj : j.val + C < C + C) :
    extractStridedSlice ⟨2, ![N, C]⟩ ![0, C] x h (ix2 n j) = x (ix2 n ⟨j.val + C, hj⟩) := by
  refine extractStridedSlice_apply ![0, C] x h (ix2 n j) (ix2 n ⟨j.val + C, hj⟩) (fun ax => ?_)
  match ax with
  | ⟨0, _⟩ => show n.val = 0 + n.val; omega
  | ⟨1, _⟩ => show j.val + C = C + j.val; omega

end Cert.LibRowReads

end
-- ==== Proof.RowForms.lean ====
/-
  The two spellings of a bias row are one array: a vector of length C reshaped to a [1, C] row, and the same vector
  broadcast to a [1, C] row along the column axis, both hold the vector's entry j at (0, j).
-/
import proofs.«102653_j61186104099701_1_alg».proof.Proof.Spec
import proofs.«102653_j61186104099701_1_alg».proof.Proof.LibRowReads
import Idealize.ShloMosaic.Lib.ValueIdx

noncomputable section

namespace Cert.Spec

open Cert.ReferenceIdeal Cert.ReferenceIdeal.Gen Idealize.ShloMosaic Idealize.ShloMosaic.ValueIdx

variable {F : FTy → Type} [FloatOps F]

/-- A length-128 vector reshaped to one row is the vector broadcast to one row. -/
theorem asRow128_eq (b : FArr F S128) : asRow128 b = row128 b := by
  funext i
  obtain ⟨p, q, rfl⟩ : ∃ (p : Fin 1) (q : Fin 128), i = ix2 p q := ⟨i 0, i 1, eq_ix2 i⟩
  obtain rfl : p = 0 := Subsingleton.elim _ _
  unfold asRow128 row128
  refine (Cert.LibRowReads.asRow_read _ b q).trans ?_
  refine (broadcastInDim_apply ![1] bcast_S128_S1x128_1 b (ix2 (0 : Fin 1) q) (ix1 q) (fun ax => ?_)).symm
  match ax with
  | ⟨0, _⟩ => show q.val = if (128 : Nat) = 1 then 0 else q.val; simp

/-- A length-64 vector reshaped to one row is the vector broadcast to one row. -/
theorem asRow64_eq (b : FArr F S64) : asRow64 b = row64 b := by
  funext i
  obtain ⟨p, q, rfl⟩ : ∃ (p : Fin 1) (q : Fin 64), i = ix2 p q := ⟨i 0, i 1, eq_ix2 i⟩
  obtain rfl : p = 0 := Subsingleton.elim _ _
  unfold asRow64 row64
  refine (Cert.LibRowReads.asRow_read _ b q).trans ?_
  refine (broadcastInDim_apply ![1] bcast_S64_S1x64_1 b (ix2 (0 : Fin 1) q) (ix1 q) (fun ax => ?_)).symm
  match ax with
  | ⟨0, _⟩ => show q.val = if (64 : Nat) = 1 then 0 else q.val; simp

end Cert.Spec

end
-- ==== Proof.Stretch.lean ====
/-
  The host stretches of the kernel program. Between two on-chip regions the program runs a straight line of whole-array
  host operations. For each of its four lines this file says what the line leaves in the buffers the next region reads,
  as a stage of the network applied to the buffer contents the line started from, for any contents and any float values:

  * line 0 cuts the edge list into its row of source numbers and its row of destination numbers, sums the input
    features over each node's incoming edges (gather the source rows, scatter-add them at the destinations into zeros),
    and lays the first layer's two bias vectors out as rows;
  * lines 1 and 2 do the same neighbour sums on the previous layer's output, reading the two rows of node numbers line 0
    left, and lay out the next layer's biases;
  * line 3 averages the last layer's output over each graph's nodes and lays out the head's two biases.

  Each line writes only its own fresh buffers: any other buffer holds afterwards what it held before.

  Every value statement is the line's fold computed at one buffer: each operation's result at its own buffer is its
  function applied to its operands' contents, and at another buffer what was there. What remains is the same composition
  of whole-array operations the network's stage is defined as, so the two sides agree by unfolding; the gather and the
  scatter-add stay opaque applications throughout.
-/
import proofs.«102653_j61186104099701_1_alg».proof.Proof.Gen.KernelIdeal.Launch
import proofs.«102653_j61186104099701_1_alg».proof.Proof.Spec
import Idealize.ShloMosaic.Lib.StableHlo.Run

noncomputable section

namespace Cert.KernelIdeal.Stretch

open Cert.KernelIdeal Cert.KernelIdeal.Gen Idealize.ShloMosaic Idealize.ShloMosaic.StableHlo

variable {F : FTy → Type} [FloatOps F]

/-! ## Line 0: the edge list's rows, the first neighbour sums, the first layer's bias rows -/

/-- The source numbers: row 0 of the edge list as a vector. -/
theorem stretch0_v1 (W : Valuation τ sig (Elt F)) :
    after (hostOps0 (F := F)) W (Proc.devRef .tc main_v1) = Cert.Spec.srcRaw (F := F) (W (Proc.devRef .tc main_arg1)) := by
  show after (hostOps0 (F := F)) W (Proc.devRef .tc main_v1) = _
  after_results_simp
  rfl

/-- The destination numbers: row 1 of the edge list as a vector. -/
theorem stretch0_v3 (W : Valuation τ sig (Elt F)) :
    after (hostOps0 (F := F)) W (Proc.devRef .tc main_v3) = Cert.Spec.dstRaw (F := F) (W (Proc.devRef .tc main_arg1)) := by
  show after (hostOps0 (F := F)) W (Proc.devRef .tc main_v3) = _
  after_results_simp
  rfl

/-- The input features summed over each node's incoming edges. Only the edge list and the features enter. -/
theorem stretch0_v13 (W : Valuation τ sig (Elt F)) :
    after (hostOps0 (F := F)) W (Proc.devRef .tc main_v13) = Cert.Spec.aggOf (F := F) (W (Proc.devRef .tc main_arg0)) (Cert.Spec.srcRaw (W (Proc.devRef .tc main_arg1))) (Cert.Spec.dstRaw (W (Proc.devRef .tc main_arg1))) := by
  show after (hostOps0 (F := F)) W (Proc.devRef .tc main_v13) = _
  after_results_simp
  rfl

/-- The first layer's first bias as a row. -/
theorem stretch0_v14 (W : Valuation τ sig (Elt F)) :
    after (hostOps0 (F := F)) W (Proc.devRef .tc main_v14) = Cert.Spec.asRow128 (F := F) (W (Proc.devRef .tc main_arg4)) := by
  show after (hostOps0 (F := F)) W (Proc.devRef .tc main_v14) = _
  after_results_simp
  rfl

/-- The first layer's second bias as a row. -/
theorem stretch0_v15 (W : Valuation τ sig (Elt F)) :
    after (hostOps0 (F := F)) W (Proc.devRef .tc main_v15) = Cert.Spec.asRow128 (F := F) (W (Proc.devRef .tc main_arg6)) := by
  show after (hostOps0 (F := F)) W (Proc.devRef .tc main_v15) = _
  after_results_simp
  rfl

/-- The references stretch 0 writes, in order. -/
abbrev written0 : List (Ref sig .tc) :=
  [main_v0, main_v1, main_v2, main_v3, main_c, main_v4, main_v5, main_c_0, main_v6, main_v7, main_v8, main_v9, main_v10, main_cst, main_v11, main_v12, main_v13, main_v14, main_v15]

/-- Every operation of stretch 0 writes one reference of the list. -/
theorem hostOps0_writes_sub :
    (hostOps0 (F := F)).Forall fun op => op.writes ⊆ (written0.map (Proc.devRef (τ := τ) .tc)).toFinset := by
  simp only [hostOps0, List.Forall, nullary_writes, unary_writes, binary_writes, ternary_writes, reshape_writes,
    Finset.singleton_subset_iff, List.mem_toFinset]
  repeat' apply And.intro
  all_goals exact List.mem_map_of_mem (by decide)

/-- A buffer stretch 0 does not write keeps its contents. -/
theorem stretch0_keep (W : Valuation τ sig (Elt F)) (r : Ref sig .tc) (hr : r ∉ written0) :
    after (hostOps0 (F := F)) W (Proc.devRef .tc r) = W (Proc.devRef .tc r) :=
  after_of_writes_sub _ W hostOps0_writes_sub hr

/-! ## Line 1: the second neighbour sums, the second layer's bias rows -/

/-- The first layer's output summed over each node's incoming edges, along the node numbers line 0 left. -/
theorem stretch1_v26 (W : Valuation τ sig (Elt F)) :
    after (hostOps1 (F := F)) W (Proc.devRef .tc main_v26) = Cert.Spec.aggOf (F := F) (W (Proc.devRef .tc main_v16)) (W (Proc.devRef .tc main_v1)) (W (Proc.devRef .tc main_v3)) := by
  show after (hostOps1 (F := F)) W (Proc.devRef .tc main_v26) = _
  after_results_simp
  rfl

/-- The second layer's first bias as a row. -/
theorem stretch1_v27 (W : Valuation τ sig (Elt F)) :
    after (hostOps1 (F := F)) W (Proc.devRef .tc main_v27) = Cert.Spec.asRow128 (F := F) (W (Proc.devRef .tc main_arg8)) := by
  show after (hostOps1 (F := F)) W (Proc.devRef .tc main_v27) = _
  after_results_simp
  rfl

/-- The second layer's second bias as a row. -/
theorem stretch1_v28 (W : Valuation τ sig (Elt F)) :
    after (hostOps1 (F := F)) W (Proc.devRef .tc main_v28) = Cert.Spec.asRow128 (F := F) (W (Proc.devRef .tc main_arg10)) := by
  show after (hostOps1 (F := F)) W (Proc.devRef .tc main_v28) = _
  after_results_simp
  rfl

/-- The references stretch 1 writes, in order. -/
abbrev written1 : List (Ref sig .tc) :=
  [main_c_1, main_v17, main_v18, main_c_2, main_v19, main_v20, main_v21, main_v22, main_v23, main_cst_3, main_v24, main_v25, main_v26, main_v27, main_v28]

/-- Every operation of stretch 1 writes one reference of the list. -/
theorem hostOps1_writes_sub :
    (hostOps1 (F := F)).Forall fun op => op.writes ⊆ (written1.map (Proc.devRef (τ := τ) .tc)).toFinset := by
  simp only [hostOps1, List.Forall, nullary_writes, unary_writes, binary_writes, ternary_writes, reshape_writes,
    Finset.singleton_subset_iff, List.mem_toFinset]
  repeat' apply And.intro
  all_goals exact List.mem_map_of_mem (by decide)

/-- A buffer stretch 1 does not write keeps its contents. -/
theorem stretch1_keep (W : Valuation τ sig (Elt F)) (r : Ref sig .tc) (hr : r ∉ written1) :
    after (hostOps1 (F := F)) W (Proc.devRef .tc r) = W (Proc.devRef .tc r) :=
  after_of_writes_sub _ W hostOps1_writes_sub hr

/-! ## Line 2: the third neighbour sums, the third layer's bias rows -/

/-- The second layer's output summed over each node's incoming edges. -/
theorem stretch2_v39 (W : Valuation τ sig (Elt F)) :
    after (hostOps2 (F := F)) W (Proc.devRef .tc main_v39) = Cert.Spec.aggOf (F := F) (W (Proc.devRef .tc main_v29)) (W (Proc.devRef .tc main_v1)) (W (Proc.devRef .tc main_v3)) := by
  show after (hostOps2 (F := F)) W (Proc.devRef .tc main_v39) = _
  after_results_simp
  rfl

/-- The third layer's first bias as a row. -/
theorem stretch2_v40 (W : Valuation τ sig (Elt F)) :
    after (hostOps2 (F := F)) W (Proc.devRef .tc main_v40) = Cert.Spec.asRow128 (F := F) (W (Proc.devRef .tc main_arg12)) := by
  show after (hostOps2 (F := F)) W (Proc.devRef .tc main_v40) = _
  after_results_simp
  rfl

/-- The third layer's second bias as a row. -/
theorem stretch2_v41 (W : Valuation τ sig (Elt F)) :
    after (hostOps2 (F := F)) W (Proc.devRef .tc main_v41) = Cert.Spec.asRow128 (F := F) (W (Proc.devRef .tc main_arg14)) := by
  show after (hostOps2 (F := F)) W (Proc.devRef .tc main_v41) = _
  after_results_simp
  rfl

/-- The references stretch 2 writes, in order. -/
abbrev written2 : List (Ref sig .tc) :=
  [main_c_4, main_v30, main_v31, main_c_5, main_v32, main_v33, main_v34, main_v35, main_v36, main_cst_6, main_v37, main_v38, main_v39, main_v40, main_v41]

/-- Every operation of stretch 2 writes one reference of the list. -/
theorem hostOps2_writes_sub :
    (hostOps2 (F := F)).Forall fun op => op.writes ⊆ (written2.map (Proc.devRef (τ := τ) .tc)).toFinset := by
  simp only [hostOps2, List.Forall, nullary_writes, unary_writes, binary_writes, ternary_writes, reshape_writes,
    Finset.singleton_subset_iff, List.mem_toFinset]
  repeat' apply And.intro
  all_goals exact List.mem_map_of_mem (by decide)

/-- A buffer stretch 2 does not write keeps its contents. -/
theorem stretch2_keep (W : Valuation τ sig (Elt F)) (r : Ref sig .tc) (hr : r ∉ written2) :
    after (hostOps2 (F := F)) W (Proc.devRef .tc r) = W (Proc.devRef .tc r) :=
  after_of_writes_sub _ W hostOps2_writes_sub hr

/-! ## Line 3: the mean over each graph's nodes, the head's bias rows -/

/-- The third layer's output averaged over each graph: the per-graph row sums divided by the larger of the per-graph
    node count and 1, the count being the scatter-add of ones at the graph numbers. -/
theorem stretch3_v54 (W : Valuation τ sig (Elt F)) :
    after (hostOps3 (F := F)) W (Proc.devRef .tc main_v54) = Cert.Spec.pool (F := F) (W (Proc.devRef .tc main_v42)) (W (Proc.devRef .tc main_arg2)) := by
  show after (hostOps3 (F := F)) W (Proc.devRef .tc main_v54) = _
  after_results_simp
  rfl

/-- The head's first bias as a row. -/
theorem stretch3_v55 (W : Valuation τ sig (Elt F)) :
    after (hostOps3 (F := F)) W (Proc.devRef .tc main_v55) = Cert.Spec.asRow128 (F := F) (W (Proc.devRef .tc main_arg16)) := by
  show after (hostOps3 (F := F)) W (Proc.devRef .tc main_v55) = _
  after_results_simp
  rfl

/-- The head's second bias as a row. -/
theorem stretch3_v56 (W : Valuation τ sig (Elt F)) :
    after (hostOps3 (F := F)) W (Proc.devRef .tc main_v56) = Cert.Spec.asRow64 (F := F) (W (Proc.devRef .tc main_arg18)) := by
  show after (hostOps3 (F := F)) W (Proc.devRef .tc main_v56) = _
  after_results_simp
  rfl

/-- The references stretch 3 writes, in order. -/
abbrev written3 : List (Ref sig .tc) :=
  [main_cst_7, main_v43, main_v44, main_v45, main_cst_8, main_v46, main_cst_9, main_v47, main_v48, main_v49, main_cst_10, main_v50, main_v51, main_v52, main_v53, main_v54, main_v55, main_v56]

/-- Every operation of stretch 3 writes one reference of the list. -/
theorem hostOps3_writes_sub :
    (hostOps3 (F := F)).Forall fun op => op.writes ⊆ (written3.map (Proc.devRef (τ := τ) .tc)).toFinset := by
  simp only [hostOps3, List.Forall, nullary_writes, unary_writes, binary_writes, ternary_writes, reshape_writes,
    Finset.singleton_subset_iff, List.mem_toFinset]
  repeat' apply And.intro
  all_goals exact List.mem_map_of_mem (by decide)

/-- A buffer stretch 3 does not write keeps its contents. -/
theorem stretch3_keep (W : Valuation τ sig (Elt F)) (r : Ref sig .tc) (hr : r ∉ written3) :
    after (hostOps3 (F := F)) W (Proc.devRef .tc r) = W (Proc.devRef .tc r) :=
  after_of_writes_sub _ W hostOps3_writes_sub hr

end Cert.KernelIdeal.Stretch

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.LayerRows.lean ====
/-
  One layer's dense part, read one entry at a time, at the ideal values.

  With h the node features, a their neighbour sums, W1, W2 the two weight matrices and r1, r2 the two biases given as
  one-row arrays, entry (p, q) of relu (sigmoid ((h + a) · W1 + r1) · W2 + r2) is

      max ( Σ_j  logistic ( Σ_k (h (p, k) + a (p, k)) · W1 (k, j)  +  r1 (0, j) ) · W2 (j, q)  +  r2 (0, q) , 0 ).

  It reads row p of h and of a, the two matrices and the two rows, and nothing else; so the layer computed on a block of
  rows is the same block of rows of the layer computed on all the rows (`mlpAt_congr`). Two spellings are read here at
  (p, q) and shown to give that expression, for any number M of rows:
  * the on-chip one: operands narrowed to bf16 (a change of format, so nothing at the ideal values), a plain matrix
    product accumulated into the zero splat, the bias row laid over every row, `logistic`, the maximum with a zero splat;
  * the host one: a plain `dot_general`, the bias row repeated down the rows, the sigmoid written 1 / (1 + exp (-x)) with
    the constant one broadcast, the maximum with a broadcast zero. 'logistic x' is by definition 1 / (1 + exp (-x)) on
    the extended reals, so the two sigmoids are one term once the constant's word is read as 1.
  Then the three printed block bodies and the whole-array function `Cert.Spec.mlp` are instances (M = 5000 and
  M = 100000): an entry of a block body equals the entry of `Cert.Spec.mlp` in the row of the whole arrays that the
  block's row is. Nothing of real arithmetic is used, so everything holds at the infinities too.
-/
import proofs.«102653_j61186104099701_1_alg».proof.Proof.Gen.KernelIdeal.Skeleton
import proofs.«102653_j61186104099701_1_alg».proof.Proof.Spec
import proofs.«102653_j61186104099701_1_alg».proof.Proof.LibMatmulRows
import Idealize.ShloMosaic.Lib.Pipeline.Value
import Idealize.ShloMosaic.Lib.ValueIdx
import Idealize.ShloMosaic.Lib.IdealHost
import Idealize.ShloMosaic.PureOps.Ideal

noncomputable section

open scoped BigOperators

namespace Cert.KernelIdeal.Layers

open Cert.KernelIdeal Cert.KernelIdeal.Gen Idealize.ShloMosaic Idealize.ShloMosaic.ValueIdx

/-! ## The entry, as an expression in one row -/

/-- Entry (p, q) of z · W + r, the bias r a one-row array: row p of z against column q of W, plus r (0, q). -/
def affineAt {M K N : Nat} (z : (⟨2, ![M, K]⟩ : Shape).Idx → EReal) (w : (⟨2, ![K, N]⟩ : Shape).Idx → EReal)
    (r : (⟨2, ![1, N]⟩ : Shape).Idx → EReal) (p : Fin M) (q : Fin N) : EReal :=
  (∑ k : Fin K, z (ix2 p k) * w (ix2 k q)) + r (ix2 (0 : Fin 1) q)

/-- The entry reads only row p of z. -/
theorem affineAt_congr {M M' K N : Nat} {z : (⟨2, ![M, K]⟩ : Shape).Idx → EReal} {z' : (⟨2, ![M', K]⟩ : Shape).Idx → EReal}
    (w : (⟨2, ![K, N]⟩ : Shape).Idx → EReal) (r : (⟨2, ![1, N]⟩ : Shape).Idx → EReal) {p : Fin M} {p' : Fin M'} (q : Fin N)
    (hz : ∀ k : Fin K, z (ix2 p k) = z' (ix2 p' k)) : affineAt z w r p q = affineAt z' w r p' q := by
  unfold affineAt
  exact congrArg (· + r (ix2 (0 : Fin 1) q)) (Finset.sum_congr rfl fun k _ => by rw [hz k])

/-- Entry (p, q) of relu (sigmoid ((h + a) · W1 + r1) · W2 + r2). -/
def mlpAt {M : Nat} (h a : (⟨2, ![M, 128]⟩ : Shape).Idx → EReal) (w1 : (⟨2, ![128, 128]⟩ : Shape).Idx → EReal)
    (r1 : (⟨2, ![1, 128]⟩ : Shape).Idx → EReal) (w2 : (⟨2, ![128, 128]⟩ : Shape).Idx → EReal)
    (r2 : (⟨2, ![1, 128]⟩ : Shape).Idx → EReal) (p : Fin M) (q : Fin 128) : EReal :=
  max ((∑ j : Fin 128, Ideal.logistic (affineAt (fun i => h i + a i) w1 r1 p j) * w2 (ix2 j q)) + r2 (ix2 (0 : Fin 1) q)) 0

/-- The entry reads only row p of h and of a: two pairs of arrays (possibly of different heights) whose rows p and p'
    agree give the same entry. -/
theorem mlpAt_congr {M M' : Nat} {h a : (⟨2, ![M, 128]⟩ : Shape).Idx → EReal} {h' a' : (⟨2, ![M', 128]⟩ : Shape).Idx → EReal}
    (w1 : (⟨2, ![128, 128]⟩ : Shape).Idx → EReal) (r1 : (⟨2, ![1, 128]⟩ : Shape).Idx → EReal)
    (w2 : (⟨2, ![128, 128]⟩ : Shape).Idx → EReal) (r2 : (⟨2, ![1, 128]⟩ : Shape).Idx → EReal) {p : Fin M} {p' : Fin M'} (q : Fin 128)
    (hh : ∀ k : Fin 128, h (ix2 p k) = h' (ix2 p' k)) (ha : ∀ k : Fin 128, a (ix2 p k) = a' (ix2 p' k)) :
    mlpAt h a w1 r1 w2 r2 p q = mlpAt h' a' w1 r1 w2 r2 p' q := by
  unfold mlpAt
  have e : ∀ j : Fin 128, affineAt (fun i => h i + a i) w1 r1 p j = affineAt (fun i => h' i + a' i) w1 r1 p' j :=
    fun j => affineAt_congr w1 r1 j (fun k => by show h (ix2 p k) + a (ix2 p k) = h' (ix2 p' k) + a' (ix2 p' k); rw [hh k, ha k])
  exact congrArg (fun s => max (s + r2 (ix2 (0 : Fin 1) q)) 0) (Finset.sum_congr rfl fun j _ => by rw [e j])

/-! ## A one-row array laid over M rows, in the two spellings -/

/-- On chip: a [1, N] row broadcast to [M, N] reads, at (p, q), the row at (0, q). -/
theorem rowTo_read {α : Type} {M N : Nat} (hN : N ≠ 1) (hb : (⟨2, ![1, N]⟩ : Shape).Broadcasts ⟨2, ![M, N]⟩)
    (r : (⟨2, ![1, N]⟩ : Shape).Idx → α) (p : Fin M) (q : Fin N) :
    broadcastTo ⟨2, ![M, N]⟩ r hb (ix2 p q) = r (ix2 (0 : Fin 1) q) := by
  refine broadcastTo_apply r hb (ix2 p q) (ix2 (0 : Fin 1) q) (fun a => ?_)
  match a with
  | ⟨0, _⟩ => show (0 : Nat) = if (1 : Nat) = 1 then 0 else _; simp
  | ⟨1, _⟩ => show q.val = if N = 1 then 0 else q.val; rw [if_neg hN]

/-- On the host: a [1, N] row repeated down M rows reads, at (p, q), the row at (0, q). -/
theorem rowDown_read {α : Type} {M N : Nat} (hN : N ≠ 1) (h2 : (⟨2, ![1, N]⟩ : Shape).BroadcastsInDim ⟨2, ![M, N]⟩ ![0, 1])
    (r : (⟨2, ![1, N]⟩ : Shape).Idx → α) (p : Fin M) (q : Fin N) :
    broadcastInDim ⟨2, ![M, N]⟩ ![0, 1] h2 r (ix2 p q) = r (ix2 (0 : Fin 1) q) := by
  refine broadcastInDim_apply ![0, 1] h2 r (ix2 p q) (ix2 (0 : Fin 1) q) (fun ax => ?_)
  match ax with
  | ⟨0, _⟩ => show (0 : Nat) = if (1 : Nat) = 1 then 0 else p.val; simp
  | ⟨1, _⟩ => show q.val = if N = 1 then 0 else q.val; rw [if_neg hN]

/-! ## z · W + r at an entry, in the two spellings -/

/-- On chip: both operands narrowed to bf16, the product accumulated into the zero splat, the row laid over the rows. -/
theorem chip_affine_apply (M K N : Nat) (hN : N ≠ 1) (hlt : FTy.bits .bf16 < FTy.bits .f32)
    (hb : (⟨2, ![1, N]⟩ : Shape).Broadcasts ⟨2, ![M, N]⟩)
    (z : FVec Ideal ⟨2, ![M, K]⟩ .f32) (w : FVec Ideal ⟨2, ![K, N]⟩ .f32) (r : FVec Ideal ⟨2, ![1, N]⟩ .f32) (p : Fin M) (q : Fin N) :
    addf (matmul (DotDims.plain M K N) none (truncf .bf16 z hlt) (truncf .bf16 w hlt) (constant ⟨2, ![M, N]⟩ .f32 0x00000000#32))
        (broadcastTo ⟨2, ![M, N]⟩ r hb) (ix2 p q)
      = affineAt z w r p q := by
  rw [addf_apply, rowTo_read hN hb r p q]
  unfold affineAt
  exact congrArg (· + r (ix2 (0 : Fin 1) q)) (Cert.Bridge.matmul_plain_zero_apply M K N none (truncf .bf16 z hlt) (truncf .bf16 w hlt) p q)

/-- On the host: a plain dot_general, the row repeated down the rows. -/
theorem host_affine_apply (M K N : Nat) (hN : N ≠ 1) (h2 : (⟨2, ![1, N]⟩ : Shape).BroadcastsInDim ⟨2, ![M, N]⟩ ![0, 1])
    (z : FVec Ideal ⟨2, ![M, K]⟩ .f32) (w : FVec Ideal ⟨2, ![K, N]⟩ .f32) (r : FVec Ideal ⟨2, ![1, N]⟩ .f32) (p : Fin M) (q : Fin N) :
    addf (Host.dotGeneral (DotDims.plain M K N) none z w) (broadcastInDim ⟨2, ![M, N]⟩ ![0, 1] h2 r) (ix2 p q)
      = affineAt z w r p q := by
  rw [addf_apply, rowDown_read hN h2 r p q]
  unfold affineAt
  exact congrArg (· + r (ix2 (0 : Fin 1) q)) (Cert.Bridge.dotGeneral_plain_apply M K N none .single z w p q)

/-! ## The layer at an entry, in the two spellings -/

/-- On chip, for M rows: the maximum with the zero splat of (logistic ((h + a) · W1 + r1)) · W2 + r2. -/
theorem chip_layer_apply (M : Nat) (hlt : FTy.bits .bf16 < FTy.bits .f32)
    (hb : (⟨2, ![1, 128]⟩ : Shape).Broadcasts ⟨2, ![M, 128]⟩)
    (h a : FVec Ideal ⟨2, ![M, 128]⟩ .f32) (w1 : FVec Ideal ⟨2, ![128, 128]⟩ .f32) (r1 : FVec Ideal ⟨2, ![1, 128]⟩ .f32)
    (w2 : FVec Ideal ⟨2, ![128, 128]⟩ .f32) (r2 : FVec Ideal ⟨2, ![1, 128]⟩ .f32) (p : Fin M) (q : Fin 128) :
    maximumf
        (addf
          (matmul (DotDims.plain M 128 128) none
            (truncf .bf16
              (logistic
                (addf
                  (matmul (DotDims.plain M 128 128) none (truncf .bf16 (addf h a) hlt) (truncf .bf16 w1 hlt)
                    (constant ⟨2, ![M, 128]⟩ .f32 0x00000000#32))
                  (broadcastTo ⟨2, ![M, 128]⟩ r1 hb)))
              hlt)
            (truncf .bf16 w2 hlt) (constant ⟨2, ![M, 128]⟩ .f32 0x00000000#32))
          (broadcastTo ⟨2, ![M, 128]⟩ r2 hb))
        (broadcast ⟨2, ![M, 128]⟩ (Scalar.ofBits .f32 0x00000000#32)) (ix2 p q)
      = mlpAt h a w1 r1 w2 r2 p q := by
  rw [maximumf_apply, broadcast_apply, chip_affine_apply M 128 128 (by decide) hlt hb _ w2 r2 p q]
  unfold mlpAt
  have e : ∀ j : Fin 128,
      logistic (addf (matmul (DotDims.plain M 128 128) none (truncf .bf16 (addf h a) hlt) (truncf .bf16 w1 hlt)
          (constant ⟨2, ![M, 128]⟩ .f32 0x00000000#32)) (broadcastTo ⟨2, ![M, 128]⟩ r1 hb)) (ix2 p j)
        = Ideal.logistic (affineAt (fun i => h i + a i) w1 r1 p j) := fun j =>
    congrArg Ideal.logistic (chip_affine_apply M 128 128 (by decide) hlt hb (addf h a) w1 r1 p j)
  unfold affineAt at e ⊢
  simp only [e]
  exact congrArg (max _) Ideal.ofBits_zero_f32

/-- On the host, for M rows: the maximum with a broadcast zero of (1 / (1 + exp (-((h + a) · W1 + r1)))) · W2 + r2. -/
theorem host_layer_apply (M : Nat) (hs : (⟨0, ![]⟩ : Shape).BroadcastsInDim ⟨2, ![M, 128]⟩ ![])
    (h2 : (⟨2, ![1, 128]⟩ : Shape).BroadcastsInDim ⟨2, ![M, 128]⟩ ![0, 1])
    (h a : FVec Ideal ⟨2, ![M, 128]⟩ .f32) (w1 : FVec Ideal ⟨2, ![128, 128]⟩ .f32) (r1 : FVec Ideal ⟨2, ![1, 128]⟩ .f32)
    (w2 : FVec Ideal ⟨2, ![128, 128]⟩ .f32) (r2 : FVec Ideal ⟨2, ![1, 128]⟩ .f32) (p : Fin M) (q : Fin 128) :
    maximumf
        (addf
          (Host.dotGeneral (DotDims.plain M 128 128) none
            (Host.divf (broadcastInDim ⟨2, ![M, 128]⟩ ![] hs (constant (F := Ideal) ⟨0, ![]⟩ .f32 0x3F800000#32))
              (addf (broadcastInDim ⟨2, ![M, 128]⟩ ![] hs (constant (F := Ideal) ⟨0, ![]⟩ .f32 0x3F800000#32))
                (Host.exp (Host.negf
                  (addf (Host.dotGeneral (DotDims.plain M 128 128) none (addf h a) w1)
                    (broadcastInDim ⟨2, ![M, 128]⟩ ![0, 1] h2 r1))))))
            w2)
          (broadcastInDim ⟨2, ![M, 128]⟩ ![0, 1] h2 r2))
        (broadcastInDim ⟨2, ![M, 128]⟩ ![] hs (constant (F := Ideal) ⟨0, ![]⟩ .f32 0x00000000#32)) (ix2 p q)
      = mlpAt h a w1 r1 w2 r2 p q := by
  rw [maximumf_apply, broadcastInDim_scalar_apply hs, constant_apply, Ideal.ofBits_zero_f32,
    host_affine_apply M 128 128 (by decide) h2 _ w2 r2 p q]
  unfold mlpAt
  have e : ∀ j : Fin 128,
      Host.divf (broadcastInDim ⟨2, ![M, 128]⟩ ![] hs (constant (F := Ideal) ⟨0, ![]⟩ .f32 0x3F800000#32))
          (addf (broadcastInDim ⟨2, ![M, 128]⟩ ![] hs (constant (F := Ideal) ⟨0, ![]⟩ .f32 0x3F800000#32))
            (Host.exp (Host.negf
              (addf (Host.dotGeneral (DotDims.plain M 128 128) none (addf h a) w1)
                (broadcastInDim ⟨2, ![M, 128]⟩ ![0, 1] h2 r1))))) (ix2 p j)
        = Ideal.logistic (affineAt (fun i => h i + a i) w1 r1 p j) := fun j => by
    rw [hostDivf_apply, addf_apply, broadcastInDim_scalar_apply hs, constant_apply, Ideal.ofBits_one_f32]
    exact congrArg (fun x => Ideal.div 1 (1 + Ideal.exp (-x))) (host_affine_apply M 128 128 (by decide) h2 (addf h a) w1 r1 p j)
  unfold affineAt at e ⊢
  simp only [e]

/-! ## The three block bodies and the whole-array function are instances -/

/-- The first layer's block body at (p, q). -/
theorem pay0_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 x0 x1 x2 x3 x4 x5 (ix2 p q) = mlpAt x0 x1 x2 x3 x4 x5 p q := by
  unfold k0_pay1
  simp only [shapeCast_self]
  exact chip_layer_apply 5000 bitsLt_bf16_f32 broadcasts_S1x128_S5000x128 x0 x1 x2 x3 x4 x5 p q

/-- The second layer's block body at (p, q). -/
theorem pay1_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k1_pay1 x0 x1 x2 x3 x4 x5 (ix2 p q) = mlpAt x0 x1 x2 x3 x4 x5 p q := by
  unfold k1_pay1
  simp only [shapeCast_self]
  exact chip_layer_apply 5000 bitsLt_bf16_f32 broadcasts_S1x128_S5000x128 x0 x1 x2 x3 x4 x5 p q

/-- The third layer's block body at (p, q). -/
theorem pay2_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k2_pay1 x0 x1 x2 x3 x4 x5 (ix2 p q) = mlpAt x0 x1 x2 x3 x4 x5 p q := by
  unfold k2_pay1
  simp only [shapeCast_self]
  exact chip_layer_apply 5000 bitsLt_bf16_f32 broadcasts_S1x128_S5000x128 x0 x1 x2 x3 x4 x5 p q

/-- The whole-array layer at (r, q). -/
theorem mlp_apply (H A : Cert.Spec.FArr Ideal S100000x128) (W1 : Cert.Spec.FArr Ideal S128x128) (R1 : Cert.Spec.FArr Ideal S1x128)
    (W2 : Cert.Spec.FArr Ideal S128x128) (R2 : Cert.Spec.FArr Ideal S1x128) (r : Fin 100000) (q : Fin 128) :
    Cert.Spec.mlp (F := Ideal) H A W1 R1 W2 R2 (ix2 r q) = mlpAt H A W1 R1 W2 R2 r q := by
  unfold Cert.Spec.mlp Cert.Spec.relu Cert.Spec.dense Cert.Spec.sigm
  exact host_layer_apply 100000 Cert.ReferenceIdeal.Gen.bcast_S_S100000x128 Cert.ReferenceIdeal.Gen.bcast_S1x128_S100000x128_0_1
    H A W1 R1 W2 R2 r q

/-! ## A block body's entry is the whole-array layer's entry in the same row -/

/-- Common form: if row p of the two block operands is row r of the two whole arrays, an entry that is the row
    expression on the block equals the whole-array layer's entry at (r, q). -/
theorem entry_of_rows (x0 x1 : Vec Ideal S5000x128 .f32) (H A : Cert.Spec.FArr Ideal S100000x128)
    (W1 : Cert.Spec.FArr Ideal S128x128) (R1 : Cert.Spec.FArr Ideal S1x128) (W2 : Cert.Spec.FArr Ideal S128x128)
    (R2 : Cert.Spec.FArr Ideal S1x128) (p : Fin 5000) (q : Fin 128) (r : Fin 100000)
    (h0 : ∀ k : Fin 128, x0 (ix2 p k) = H (ix2 r k)) (h1 : ∀ k : Fin 128, x1 (ix2 p k) = A (ix2 r k)) :
    mlpAt x0 x1 W1 R1 W2 R2 p q = Cert.Spec.mlp (F := Ideal) H A W1 R1 W2 R2 (ix2 r q) :=
  (mlpAt_congr W1 R1 W2 R2 q h0 h1).trans (mlp_apply H A W1 R1 W2 R2 r q).symm

end Cert.KernelIdeal.Layers

end
-- ==== Proof.Layer0.lean ====
/-
  The first layer's dense part, computed block by block, is the whole-array layer.

  The node features and their neighbour sums, [100000, 128] each, are cut into 20 blocks of 5000 rows; grid point t reads
  block t of both (rows 5000 t … 5000 t + 4999), the two weight matrices and the two bias rows whole, and writes block t
  of the result. Entry (p, q) of what point t writes is the layer's row expression in row p of the two blocks, which is
  row 5000 t + p of the two whole arrays; so it is entry (5000 t + p, q) of the whole-array layer `Cert.Spec.mlp`
  (`LayerRows.lean`: an entry reads its own row of the features and sums, and nothing else of them). The 20 blocks tile
  the array (row r lies in block r / 5000), so after the last point the result array is the whole-array layer.
-/
import proofs.«102653_j61186104099701_1_alg».proof.Proof.Gen.KernelIdeal.Frame
import proofs.«102653_j61186104099701_1_alg».proof.Proof.LayerRows
import Idealize.ShloMosaic.Lib.Pipeline.Value
import Idealize.ShloMosaic.Lib.ValueIdx
import Idealize.ShloMosaic.PureOps.Ideal

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body loads and stores whole staging buffers: every access starts at offset (0, 0). -/
theorem zero_offsets0 : (![0, 0] : Fin 2 → Nat) = fun _ => 0 := funext fun a => by fin_cases a <;> rfl

/-! ## Which block each window reads at a grid point -/

/-- At point t the two row-blocked inputs and the output are at block (t, 0); the matrices and the bias rows are at
    block (0, 0), that is, whole. Decided over the 20 points. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks as rows of the whole arrays -/

/-- Row p of the features' block at point t is row 5000 t + p of the features. -/
theorem features_block0 (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → EReal) (ix2 r k) := by
  obtain ⟨f00, f01, f10, f11, f20, f21, f30, f31, f40, f41, f50, f51, f60, f61⟩ := block_indices0 t
  show (V c main_arg0 : S100000x128.Idx → EReal) (((cfg0.win 0).blk t).view.emb (ix2 p k)) = _
  refine congrArg _ (funext fun a => Fin.ext ?_)
  match a with
  | ⟨0, _⟩ => show win0_0.index t (0 : Fin 2) * 5000 + 1 * p.val = r.val; rw [f00, hr]; omega
  | ⟨1, _⟩ => show win0_0.index t (1 : Fin 2) * 128 + 1 * k.val = k.val; rw [f01]; omega

/-- Row p of the neighbour sums' block at point t is row 5000 t + p of the neighbour sums. -/
theorem sums_block0 (c : Dev nD) (t : Fin cfg0.N) (p : Fin 5000) (k : Fin 128) (r : Fin 100000)
    (hr : r.val = t.val * 5000 + p.val) :
    (iblk0 V c 1 t : Vec Ideal S5000x128 .f32) (ix2 p k) = (V c main_v13 : S100000x128.Idx → EReal) (ix2 r k) := by
  obtain ⟨f00, f01, f10, f11, f20, f21, f30, f31, f40, f41, f50, f51, f60, f61⟩ := block_indices0 t
  show (V c main_v13 : S100000x128.Idx → EReal) (((cfg0.win 1).blk t).view.emb (ix2 p k)) = _
  refine congrArg _ (funext fun a => Fin.ext ?_)
  match a with
  | ⟨0, _⟩ => show win0_1.index t (0 : Fin 2) * 5000 + 1 * p.val = r.val; rw [f10, hr]; omega
  | ⟨1, _⟩ => show win0_1.index t (1 : Fin 2) * 128 + 1 * k.val = k.val; rw [f11]; omega

/-- The two weight matrices and the two bias rows are read whole at every point. -/
theorem weights_block0 (c : Dev nD) (t : Fin cfg0.N) :
    (iblk0 V c 2 t : Vec Ideal S128x128 .f32) = (V c main_arg3 : S128x128.Idx → EReal)
    ∧ (iblk0 V c 3 t : Vec Ideal S1x128 .f32) = (V c main_v14 : S1x128.Idx → EReal)
    ∧ (iblk0 V c 4 t : Vec Ideal S128x128 .f32) = (V c main_arg5 : S128x128.Idx → EReal)
    ∧ (iblk0 V c 5 t : Vec Ideal S1x128 .f32) = (V c main_v15 : S1x128.Idx → EReal) := by
  obtain ⟨f00, f01, f10, f11, f20, f21, f30, f31, f40, f41, f50, f51, f60, f61⟩ := block_indices0 t
  refine ⟨funext fun i => ?_, funext fun i => ?_, funext fun i => ?_, funext fun i => ?_⟩
  · show (V c main_arg3 : S128x128.Idx → EReal) (((cfg0.win 2).blk t).view.emb i) = _
    refine congrArg _ (funext fun a => Fin.ext ?_)
    match a with
    | ⟨0, _⟩ => show win0_2.index t (0 : Fin 2) * 128 + 1 * (i 0).val = (i 0).val; rw [f20]; omega
    | ⟨1, _⟩ => show win0_2.index t (1 : Fin 2) * 128 + 1 * (i 1).val = (i 1).val; rw [f21]; omega
  · show (V c main_v14 : S1x128.Idx → EReal) (((cfg0.win 3).blk t).view.emb i) = _
    refine congrArg _ (funext fun a => Fin.ext ?_)
    match a with
    | ⟨0, _⟩ => show win0_3.index t (0 : Fin 2) * 1 + 1 * (i 0).val = (i 0).val; rw [f30]; omega
    | ⟨1, _⟩ => show win0_3.index t (1 : Fin 2) * 128 + 1 * (i 1).val = (i 1).val; rw [f31]; omega
  · show (V c main_arg5 : S128x128.Idx → EReal) (((cfg0.win 4).blk t).view.emb i) = _
    refine congrArg _ (funext fun a => Fin.ext ?_)
    match a with
    | ⟨0, _⟩ => show win0_4.index t (0 : Fin 2) * 128 + 1 * (i 0).val = (i 0).val; rw [f40]; omega
    | ⟨1, _⟩ => show win0_4.index t (1 : Fin 2) * 128 + 1 * (i 1).val = (i 1).val; rw [f41]; omega
  · show (V c main_v15 : S1x128.Idx → EReal) (((cfg0.win 5).blk t).view.emb i) = _
    refine congrArg _ (funext fun a => Fin.ext ?_)
    match a with
    | ⟨0, _⟩ => show win0_5.index t (0 : Fin 2) * 1 + 1 * (i 0).val = (i 0).val; rw [f50]; omega
    | ⟨1, _⟩ => show win0_5.index t (1 : Fin 2) * 128 + 1 * (i 1).val = (i 1).val; rw [f51]; omega

/-! ## An entry of the block body is the whole-array layer's entry in the same row -/

/-- Over any operands: if the block index y and the array index i name the same column, row (y 0) of the two block
    operands is row (i 0) of the two whole arrays, and the matrices and bias rows are the same, then the block body at y
    is the whole-array layer at i. -/
theorem body0_entry (x0 x1 : Vec Ideal S5000x128 .f32) (x2 : Vec Ideal S128x128 .f32) (x3 : Vec Ideal S1x128 .f32)
    (x4 : Vec Ideal S128x128 .f32) (x5 : Vec Ideal S1x128 .f32)
    (H A : Cert.Spec.FArr Ideal S100000x128) (W1 : Cert.Spec.FArr Ideal S128x128) (R1 : Cert.Spec.FArr Ideal S1x128)
    (W2 : Cert.Spec.FArr Ideal S128x128) (R2 : Cert.Spec.FArr Ideal S1x128)
    (y : S5000x128.Idx) (i : S100000x128.Idx) (hq : (i 1).val = (y 1).val)
    (h0 : ∀ k : Fin 128, x0 (ix2 (y 0) k) = H (ix2 (i 0) k)) (h1 : ∀ k : Fin 128, x1 (ix2 (y 0) k) = A (ix2 (i 0) k))
    (e2 : x2 = W1) (e3 : x3 = R1) (e4 : x4 = W2) (e5 : x5 = R2) :
    k0_pay1 x0 x1 x2 x3 x4 x5 y = Cert.Spec.mlp (F := Ideal) H A W1 R1 W2 R2 i := by
  subst e2 e3 e4 e5
  have hi : ix2 (i 0) (y 1) = i := ((congrArg (ix2 (i 0)) (Fin.ext hq : i 1 = y 1)).symm).trans (eq_ix2 i).symm
  refine (congrArg (k0_pay1 x0 x1 x2 x3 x4 x5) (eq_ix2 y)).trans ?_
  refine (pay0_apply x0 x1 x2 x3 x4 x5 (y 0) (y 1)).trans ?_
  refine (entry_of_rows x0 x1 H A x2 x3 x4 x5 (y 0) (y 1) (i 0) h0 h1).trans ?_
  exact congrArg (Cert.Spec.mlp (F := Ideal) H A x2 x3 x4 x5) hi

/-! ## What a grid point writes back -/

/-- Point t writes back block t of the whole-array layer of the arrays as the region finds them. -/
theorem flushed0_eq (c : Dev nD) (t : Fin cfg0.N) :
    (dat0 (F := Ideal) V c).flushed 6 t
      = ((cfg0.win 6).blk t).view.read (Elt Ideal) (Cert.Spec.mlp (F := Ideal) (V c main_arg0) (V c main_v13) (V c main_arg3) (V c main_v14) (V c main_arg5) (V c main_v15)) := by
  show (cfg0.win 6).cut (grid0.coords t) ((dat0 (F := Ideal) V c).after 6 t) = _
  rw [after0_6]
  unfold out0_6
  rw [View.canon_unit_zero zero_offsets0]
  simp only [View.ld_unit_zero (S := S5000x128) zero_offsets0, View.ld_unit_zero (S := S128x128) zero_offsets0,
    View.ld_unit_zero (S := S1x128) zero_offsets0]
  obtain ⟨e2, e3, e4, e5⟩ := weights_block0 V c t
  obtain ⟨f00, f01, f10, f11, f20, f21, f30, f31, f40, f41, f50, f51, f60, f61⟩ := block_indices0 t
  funext y
  show k0_pay1 (iblk0 V c 0 t) (iblk0 V c 1 t) (iblk0 V c 2 t) (iblk0 V c 3 t) (iblk0 V c 4 t) (iblk0 V c 5 t) y
    = Cert.Spec.mlp (F := Ideal) (V c main_arg0) (V c main_v13) (V c main_arg3) (V c main_v14) (V c main_arg5) (V c main_v15) (((cfg0.win 6).blk t).view.emb y)
  have hy0 : (y 0).val < 5000 := (y 0).isLt
  have hy1 : (y 1).val < 128 := (y 1).isLt
  have hrow : ((((cfg0.win 6).blk t).view.emb y) 0).val = t.val * 5000 + (y 0).val := by
    show win0_6.index t (0 : Fin 2) * 5000 + 1 * (y 0).val = t.val * 5000 + (y 0).val
    rw [f60]; omega
  have hcol : ((((cfg0.win 6).blk t).view.emb y) 1).val = (y 1).val := by
    show win0_6.index t (1 : Fin 2) * 128 + 1 * (y 1).val = (y 1).val
    rw [f61]; omega
  exact body0_entry (iblk0 V c 0 t) (iblk0 V c 1 t) (iblk0 V c 2 t) (iblk0 V c 3 t) (iblk0 V c 4 t) (iblk0 V c 5 t)
    (V c main_arg0) (V c main_v13) (V c main_arg3) (V c main_v14) (V c main_arg5) (V c main_v15) y (((cfg0.win 6).blk t).view.emb y) hcol
    (fun k => features_block0 V c t (y 0) k _ hrow) (fun k => sums_block0 V c t (y 0) k _ hrow) e2 e3 e4 e5

/-! ## The blocks tile the array -/

/-- An index of the result array is in point t's block iff each coordinate is in the block's range on its axis. -/
theorem mem_block0 (t : Fin cfg0.N) (i : S100000x128.Idx) :
    i ∈ ((cfg0.win 6).blk t).view.set
      ↔ ∀ a : Fin 2, win0_6.index t a * S5000x128.size a ≤ (i a).val
          ∧ (i a).val < win0_6.index t a * S5000x128.size a + S5000x128.size a := by
  show i ∈ ((View.whole main_v16).slice (win0_6.rect t)).set ↔ _
  rw [View.set_slice_whole, Rect.mem_set_unit]
  exact Iff.rfl

/-- Row r of the result lies in the block of point r / 5000, and every point writes its block back. -/
theorem covered0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨f00, f01, f10, f11, f20, f21, f30, f31, f40, f41, f50, f51, f60, f61⟩ := block_indices0 t
  refine ⟨t, flush0_6 t, ?_⟩
  rw [mem_block0]
  intro a
  match a with
  | ⟨0, _⟩ =>
    show win0_6.index t (0 : Fin 2) * 5000 ≤ (i 0).val ∧ (i 0).val < win0_6.index t (0 : Fin 2) * 5000 + 5000
    rw [f60, ht]; omega
  | ⟨1, _⟩ =>
    show win0_6.index t (1 : Fin 2) * 128 ≤ (i 1).val ∧ (i 1).val < win0_6.index t (1 : Fin 2) * 128 + 128
    rw [f61]; omega

/-! ## The result array after the region -/

/-- After the last point the first layer's result array is the whole-array layer of the arrays the region was entered with. -/
theorem layer0_value (c : Dev nD) :
    (dat0 (F := Ideal) V c).arrAt 6 cfg0.N = Cert.Spec.mlp (F := Ideal) (V c main_arg0) (V c main_v13) (V c main_arg3) (V c main_v14) (V c main_arg5) (V c main_v15) :=
  (dat0 (F := Ideal) V c).arrAt_eq_of_cover 6 (Cert.Spec.mlp (F := Ideal) (V c main_arg0) (V c main_v13) (V c main_arg3) (V c main_v14) (V c main_arg5) (V c main_v15))
    (fun t _ => flushed0_eq V c t) covered0

end Cert.KernelIdeal.Layers

end
-- ==== Proof.Layer1.lean ====
/-
  The second layer's dense part, computed block by block, is the whole-array layer.

  The node features and their neighbour sums, [100000, 128] each, are cut into 20 blocks of 5000 rows; grid point t reads
  block t of both (rows 5000 t … 5000 t + 4999), the two weight matrices and the two bias rows whole, and writes block t
  of the result. Entry (p, q) of what point t writes is the layer's row expression in row p of the two blocks, which is
  row 5000 t + p of the two whole arrays; so it is entry (5000 t + p, q) of the whole-array layer `Cert.Spec.mlp`
  (`LayerRows.lean`: an entry reads its own row of the features and sums, and nothing else of them). The 20 blocks tile
  the array (row r lies in block r / 5000), so after the last point the result array is the whole-array layer.
-/
import proofs.«102653_j61186104099701_1_alg».proof.Proof.Gen.KernelIdeal.Frame
import proofs.«102653_j61186104099701_1_alg».proof.Proof.LayerRows
import Idealize.ShloMosaic.Lib.Pipeline.Value
import Idealize.ShloMosaic.Lib.ValueIdx
import Idealize.ShloMosaic.PureOps.Ideal

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body loads and stores whole staging buffers: every access starts at offset (0, 0). -/
theorem zero_offsets1 : (![0, 0] : Fin 2 → Nat) = fun _ => 0 := funext fun a => by fin_cases a <;> rfl

/-! ## Which block each window reads at a grid point -/

/-- At point t the two row-blocked inputs and the output are at block (t, 0); the matrices and the bias rows are at
    block (0, 0), that is, whole. Decided over the 20 points. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## The input blocks as rows of the whole arrays -/

/-- Row p of the features' block at point t is row 5000 t + p of the features. -/
theorem features_block1 (c : Dev nD) (t : Fin cfg1.N) (p : Fin 5000) (k : Fin 128) (r : Fin 100000)
    (hr : r.val = t.val * 5000 + p.val) :
    (iblk1 V c 0 t : Vec Ideal S5000x128 .f32) (ix2 p k) = (V c main_v16 : S100000x128.Idx → EReal) (ix2 r k) := by
  obtain ⟨f00, f01, f10, f11, f20, f21, f30, f31, f40, f41, f50, f51, f60, f61⟩ := block_indices1 t
  show (V c main_v16 : S100000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; rw [f00, hr]; omega
  | ⟨1, _⟩ => show win1_0.index t (1 : Fin 2) * 128 + 1 * k.val = k.val; rw [f01]; omega

/-- Row p of the neighbour sums' block at point t is row 5000 t + p of the neighbour sums. -/
theorem sums_block1 (c : Dev nD) (t : Fin cfg1.N) (p : Fin 5000) (k : Fin 128) (r : Fin 100000)
    (hr : r.val = t.val * 5000 + p.val) :
    (iblk1 V c 1 t : Vec Ideal S5000x128 .f32) (ix2 p k) = (V c main_v26 : S100000x128.Idx → EReal) (ix2 r k) := by
  obtain ⟨f00, f01, f10, f11, f20, f21, f30, f31, f40, f41, f50, f51, f60, f61⟩ := block_indices1 t
  show (V c main_v26 : S100000x128.Idx → EReal) (((cfg1.win 1).blk t).view.emb (ix2 p k)) = _
  refine congrArg _ (funext fun a => Fin.ext ?_)
  match a with
  | ⟨0, _⟩ => show win1_1.index t (0 : Fin 2) * 5000 + 1 * p.val = r.val; rw [f10, hr]; omega
  | ⟨1, _⟩ => show win1_1.index t (1 : Fin 2) * 128 + 1 * k.val = k.val; rw [f11]; omega

/-- The two weight matrices and the two bias rows are read whole at every point. -/
theorem weights_block1 (c : Dev nD) (t : Fin cfg1.N) :
    (iblk1 V c 2 t : Vec Ideal S128x128 .f32) = (V c main_arg7 : S128x128.Idx → EReal)
    ∧ (iblk1 V c 3 t : Vec Ideal S1x128 .f32) = (V c main_v27 : S1x128.Idx → EReal)
    ∧ (iblk1 V c 4 t : Vec Ideal S128x128 .f32) = (V c main_arg9 : S128x128.Idx → EReal)
    ∧ (iblk1 V c 5 t : Vec Ideal S1x128 .f32) = (V c main_v28 : S1x128.Idx → EReal) := by
  obtain ⟨f00, f01, f10, f11, f20, f21, f30, f31, f40, f41, f50, f51, f60, f61⟩ := block_indices1 t
  refine ⟨funext fun i => ?_, funext fun i => ?_, funext fun i => ?_, funext fun i => ?_⟩
  · show (V c main_arg7 : S128x128.Idx → EReal) (((cfg1.win 2).blk t).view.emb i) = _
    refine congrArg _ (funext fun a => Fin.ext ?_)
    match a with
    | ⟨0, _⟩ => show win1_2.index t (0 : Fin 2) * 128 + 1 * (i 0).val = (i 0).val; rw [f20]; omega
    | ⟨1, _⟩ => show win1_2.index t (1 : Fin 2) * 128 + 1 * (i 1).val = (i 1).val; rw [f21]; omega
  · show (V c main_v27 : S1x128.Idx → EReal) (((cfg1.win 3).blk t).view.emb i) = _
    refine congrArg _ (funext fun a => Fin.ext ?_)
    match a with
    | ⟨0, _⟩ => show win1_3.index t (0 : Fin 2) * 1 + 1 * (i 0).val = (i 0).val; rw [f30]; omega
    | ⟨1, _⟩ => show win1_3.index t (1 : Fin 2) * 128 + 1 * (i 1).val = (i 1).val; rw [f31]; omega
  · show (V c main_arg9 : S128x128.Idx → EReal) (((cfg1.win 4).blk t).view.emb i) = _
    refine congrArg _ (funext fun a => Fin.ext ?_)
    match a with
    | ⟨0, _⟩ => show win1_4.index t (0 : Fin 2) * 128 + 1 * (i 0).val = (i 0).val; rw [f40]; omega
    | ⟨1, _⟩ => show win1_4.index t (1 : Fin 2) * 128 + 1 * (i 1).val = (i 1).val; rw [f41]; omega
  · show (V c main_v28 : S1x128.Idx → EReal) (((cfg1.win 5).blk t).view.emb i) = _
    refine congrArg _ (funext fun a => Fin.ext ?_)
    match a with
    | ⟨0, _⟩ => show win1_5.index t (0 : Fin 2) * 1 + 1 * (i 0).val = (i 0).val; rw [f50]; omega
    | ⟨1, _⟩ => show win1_5.index t (1 : Fin 2) * 128 + 1 * (i 1).val = (i 1).val; rw [f51]; omega

/-! ## An entry of the block body is the whole-array layer's entry in the same row -/

/-- Over any operands: if the block index y and the array index i name the same column, row (y 0) of the two block
    operands is row (i 0) of the two whole arrays, and the matrices and bias rows are the same, then the block body at y
    is the whole-array layer at i. -/
theorem body1_entry (x0 x1 : Vec Ideal S5000x128 .f32) (x2 : Vec Ideal S128x128 .f32) (x3 : Vec Ideal S1x128 .f32)
    (x4 : Vec Ideal S128x128 .f32) (x5 : Vec Ideal S1x128 .f32)
    (H A : Cert.Spec.FArr Ideal S100000x128) (W1 : Cert.Spec.FArr Ideal S128x128) (R1 : Cert.Spec.FArr Ideal S1x128)
    (W2 : Cert.Spec.FArr Ideal S128x128) (R2 : Cert.Spec.FArr Ideal S1x128)
    (y : S5000x128.Idx) (i : S100000x128.Idx) (hq : (i 1).val = (y 1).val)
    (h0 : ∀ k : Fin 128, x0 (ix2 (y 0) k) = H (ix2 (i 0) k)) (h1 : ∀ k : Fin 128, x1 (ix2 (y 0) k) = A (ix2 (i 0) k))
    (e2 : x2 = W1) (e3 : x3 = R1) (e4 : x4 = W2) (e5 : x5 = R2) :
    k1_pay1 x0 x1 x2 x3 x4 x5 y = Cert.Spec.mlp (F := Ideal) H A W1 R1 W2 R2 i := by
  subst e2 e3 e4 e5
  have hi : ix2 (i 0) (y 1) = i := ((congrArg (ix2 (i 0)) (Fin.ext hq : i 1 = y 1)).symm).trans (eq_ix2 i).symm
  refine (congrArg (k1_pay1 x0 x1 x2 x3 x4 x5) (eq_ix2 y)).trans ?_
  refine (pay1_apply x0 x1 x2 x3 x4 x5 (y 0) (y 1)).trans ?_
  refine (entry_of_rows x0 x1 H A x2 x3 x4 x5 (y 0) (y 1) (i 0) h0 h1).trans ?_
  exact congrArg (Cert.Spec.mlp (F := Ideal) H A x2 x3 x4 x5) hi

/-! ## What a grid point writes back -/

/-- Point t writes back block t of the whole-array layer of the arrays as the region finds them. -/
theorem flushed1_eq (c : Dev nD) (t : Fin cfg1.N) :
    (dat1 (F := Ideal) V c).flushed 6 t
      = ((cfg1.win 6).blk t).view.read (Elt Ideal) (Cert.Spec.mlp (F := Ideal) (V c main_v16) (V c main_v26) (V c main_arg7) (V c main_v27) (V c main_arg9) (V c main_v28)) := by
  show (cfg1.win 6).cut (grid1.coords t) ((dat1 (F := Ideal) V c).after 6 t) = _
  rw [after1_6]
  unfold out1_6
  rw [View.canon_unit_zero zero_offsets1]
  simp only [View.ld_unit_zero (S := S5000x128) zero_offsets1, View.ld_unit_zero (S := S128x128) zero_offsets1,
    View.ld_unit_zero (S := S1x128) zero_offsets1]
  obtain ⟨e2, e3, e4, e5⟩ := weights_block1 V c t
  obtain ⟨f00, f01, f10, f11, f20, f21, f30, f31, f40, f41, f50, f51, f60, f61⟩ := block_indices1 t
  funext y
  show k1_pay1 (iblk1 V c 0 t) (iblk1 V c 1 t) (iblk1 V c 2 t) (iblk1 V c 3 t) (iblk1 V c 4 t) (iblk1 V c 5 t) y
    = Cert.Spec.mlp (F := Ideal) (V c main_v16) (V c main_v26) (V c main_arg7) (V c main_v27) (V c main_arg9) (V c main_v28) (((cfg1.win 6).blk t).view.emb y)
  have hy0 : (y 0).val < 5000 := (y 0).isLt
  have hy1 : (y 1).val < 128 := (y 1).isLt
  have hrow : ((((cfg1.win 6).blk t).view.emb y) 0).val = t.val * 5000 + (y 0).val := by
    show win1_6.index t (0 : Fin 2) * 5000 + 1 * (y 0).val = t.val * 5000 + (y 0).val
    rw [f60]; omega
  have hcol : ((((cfg1.win 6).blk t).view.emb y) 1).val = (y 1).val := by
    show win1_6.index t (1 : Fin 2) * 128 + 1 * (y 1).val = (y 1).val
    rw [f61]; omega
  exact body1_entry (iblk1 V c 0 t) (iblk1 V c 1 t) (iblk1 V c 2 t) (iblk1 V c 3 t) (iblk1 V c 4 t) (iblk1 V c 5 t)
    (V c main_v16) (V c main_v26) (V c main_arg7) (V c main_v27) (V c main_arg9) (V c main_v28) y (((cfg1.win 6).blk t).view.emb y) hcol
    (fun k => features_block1 V c t (y 0) k _ hrow) (fun k => sums_block1 V c t (y 0) k _ hrow) e2 e3 e4 e5

/-! ## The blocks tile the array -/

/-- An index of the result array is in point t's block iff each coordinate is in the block's range on its axis. -/
theorem mem_block1 (t : Fin cfg1.N) (i : S100000x128.Idx) :
    i ∈ ((cfg1.win 6).blk t).view.set
      ↔ ∀ a : Fin 2, win1_6.index t a * S5000x128.size a ≤ (i a).val
          ∧ (i a).val < win1_6.index t a * S5000x128.size a + S5000x128.size a := by
  show i ∈ ((View.whole main_v29).slice (win1_6.rect t)).set ↔ _
  rw [View.set_slice_whole, Rect.mem_set_unit]
  exact Iff.rfl

/-- Row r of the result lies in the block of point r / 5000, and every point writes its block back. -/
theorem covered1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨f00, f01, f10, f11, f20, f21, f30, f31, f40, f41, f50, f51, f60, f61⟩ := block_indices1 t
  refine ⟨t, flush1_6 t, ?_⟩
  rw [mem_block1]
  intro a
  match a with
  | ⟨0, _⟩ =>
    show win1_6.index t (0 : Fin 2) * 5000 ≤ (i 0).val ∧ (i 0).val < win1_6.index t (0 : Fin 2) * 5000 + 5000
    rw [f60, ht]; omega
  | ⟨1, _⟩ =>
    show win1_6.index t (1 : Fin 2) * 128 ≤ (i 1).val ∧ (i 1).val < win1_6.index t (1 : Fin 2) * 128 + 128
    rw [f61]; omega

/-! ## The result array after the region -/

/-- After the last point the second layer's result array is the whole-array layer of the arrays the region was entered with. -/
theorem layer1_value (c : Dev nD) :
    (dat1 (F := Ideal) V c).arrAt 6 cfg1.N = Cert.Spec.mlp (F := Ideal) (V c main_v16) (V c main_v26) (V c main_arg7) (V c main_v27) (V c main_arg9) (V c main_v28) :=
  (dat1 (F := Ideal) V c).arrAt_eq_of_cover 6 (Cert.Spec.mlp (F := Ideal) (V c main_v16) (V c main_v26) (V c main_arg7) (V c main_v27) (V c main_arg9) (V c main_v28))
    (fun t _ => flushed1_eq V c t) covered1

end Cert.KernelIdeal.Layers

end
-- ==== Proof.Layer2.lean ====
/-
  The third layer's dense part, computed block by block, is the whole-array layer.

  The node features and their neighbour sums, [100000, 128] each, are cut into 20 blocks of 5000 rows; grid point t reads
  block t of both (rows 5000 t … 5000 t + 4999), the two weight matrices and the two bias rows whole, and writes block t
  of the result. Entry (p, q) of what point t writes is the layer's row expression in row p of the two blocks, which is
  row 5000 t + p of the two whole arrays; so it is entry (5000 t + p, q) of the whole-array layer `Cert.Spec.mlp`
  (`LayerRows.lean`: an entry reads its own row of the features and sums, and nothing else of them). The 20 blocks tile
  the array (row r lies in block r / 5000), so after the last point the result array is the whole-array layer.
-/
import proofs.«102653_j61186104099701_1_alg».proof.Proof.Gen.KernelIdeal.Frame
import proofs.«102653_j61186104099701_1_alg».proof.Proof.LayerRows
import Idealize.ShloMosaic.Lib.Pipeline.Value
import Idealize.ShloMosaic.Lib.ValueIdx
import Idealize.ShloMosaic.PureOps.Ideal

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body loads and stores whole staging buffers: every access starts at offset (0, 0). -/
theorem zero_offsets2 : (![0, 0] : Fin 2 → Nat) = fun _ => 0 := funext fun a => by fin_cases a <;> rfl

/-! ## Which block each window reads at a grid point -/

/-- At point t the two row-blocked inputs and the output are at block (t, 0); the matrices and the bias rows are at
    block (0, 0), that is, whole. Decided over the 20 points. -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## The input blocks as rows of the whole arrays -/

/-- Row p of the features' block at point t is row 5000 t + p of the features. -/
theorem features_block2 (c : Dev nD) (t : Fin cfg2.N) (p : Fin 5000) (k : Fin 128) (r : Fin 100000)
    (hr : r.val = t.val * 5000 + p.val) :
    (iblk2 V c 0 t : Vec Ideal S5000x128 .f32) (ix2 p k) = (V c main_v29 : S100000x128.Idx → EReal) (ix2 r k) := by
  obtain ⟨f00, f01, f10, f11, f20, f21, f30, f31, f40, f41, f50, f51, f60, f61⟩ := block_indices2 t
  show (V c main_v29 : S100000x128.Idx → EReal) (((cfg2.win 0).blk t).view.emb (ix2 p k)) = _
  refine congrArg _ (funext fun a => Fin.ext ?_)
  match a with
  | ⟨0, _⟩ => show win2_0.index t (0 : Fin 2) * 5000 + 1 * p.val = r.val; rw [f00, hr]; omega
  | ⟨1, _⟩ => show win2_0.index t (1 : Fin 2) * 128 + 1 * k.val = k.val; rw [f01]; omega

/-- Row p of the neighbour sums' block at point t is row 5000 t + p of the neighbour sums. -/
theorem sums_block2 (c : Dev nD) (t : Fin cfg2.N) (p : Fin 5000) (k : Fin 128) (r : Fin 100000)
    (hr : r.val = t.val * 5000 + p.val) :
    (iblk2 V c 1 t : Vec Ideal S5000x128 .f32) (ix2 p k) = (V c main_v39 : S100000x128.Idx → EReal) (ix2 r k) := by
  obtain ⟨f00, f01, f10, f11, f20, f21, f30, f31, f40, f41, f50, f51, f60, f61⟩ := block_indices2 t
  show (V c main_v39 : S100000x128.Idx → EReal) (((cfg2.win 1).blk t).view.emb (ix2 p k)) = _
  refine congrArg _ (funext fun a => Fin.ext ?_)
  match a with
  | ⟨0, _⟩ => show win2_1.index t (0 : Fin 2) * 5000 + 1 * p.val = r.val; rw [f10, hr]; omega
  | ⟨1, _⟩ => show win2_1.index t (1 : Fin 2) * 128 + 1 * k.val = k.val; rw [f11]; omega

/-- The two weight matrices and the two bias rows are read whole at every point. -/
theorem weights_block2 (c : Dev nD) (t : Fin cfg2.N) :
    (iblk2 V c 2 t : Vec Ideal S128x128 .f32) = (V c main_arg11 : S128x128.Idx → EReal)
    ∧ (iblk2 V c 3 t : Vec Ideal S1x128 .f32) = (V c main_v40 : S1x128.Idx → EReal)
    ∧ (iblk2 V c 4 t : Vec Ideal S128x128 .f32) = (V c main_arg13 : S128x128.Idx → EReal)
    ∧ (iblk2 V c 5 t : Vec Ideal S1x128 .f32) = (V c main_v41 : S1x128.Idx → EReal) := by
  obtain ⟨f00, f01, f10, f11, f20, f21, f30, f31, f40, f41, f50, f51, f60, f61⟩ := block_indices2 t
  refine ⟨funext fun i => ?_, funext fun i => ?_, funext fun i => ?_, funext fun i => ?_⟩
  · show (V c main_arg11 : S128x128.Idx → EReal) (((cfg2.win 2).blk t).view.emb i) = _
    refine congrArg _ (funext fun a => Fin.ext ?_)
    match a with
    | ⟨0, _⟩ => show win2_2.index t (0 : Fin 2) * 128 + 1 * (i 0).val = (i 0).val; rw [f20]; omega
    | ⟨1, _⟩ => show win2_2.index t (1 : Fin 2) * 128 + 1 * (i 1).val = (i 1).val; rw [f21]; omega
  · show (V c main_v40 : S1x128.Idx → EReal) (((cfg2.win 3).blk t).view.emb i) = _
    refine congrArg _ (funext fun a => Fin.ext ?_)
    match a with
    | ⟨0, _⟩ => show win2_3.index t (0 : Fin 2) * 1 + 1 * (i 0).val = (i 0).val; rw [f30]; omega
    | ⟨1, _⟩ => show win2_3.index t (1 : Fin 2) * 128 + 1 * (i 1).val = (i 1).val; rw [f31]; omega
  · show (V c main_arg13 : S128x128.Idx → EReal) (((cfg2.win 4).blk t).view.emb i) = _
    refine congrArg _ (funext fun a => Fin.ext ?_)
    match a with
    | ⟨0, _⟩ => show win2_4.index t (0 : Fin 2) * 128 + 1 * (i 0).val = (i 0).val; rw [f40]; omega
    | ⟨1, _⟩ => show win2_4.index t (1 : Fin 2) * 128 + 1 * (i 1).val = (i 1).val; rw [f41]; omega
  · show (V c main_v41 : S1x128.Idx → EReal) (((cfg2.win 5).blk t).view.emb i) = _
    refine congrArg _ (funext fun a => Fin.ext ?_)
    match a with
    | ⟨0, _⟩ => show win2_5.index t (0 : Fin 2) * 1 + 1 * (i 0).val = (i 0).val; rw [f50]; omega
    | ⟨1, _⟩ => show win2_5.index t (1 : Fin 2) * 128 + 1 * (i 1).val = (i 1).val; rw [f51]; omega

/-! ## An entry of the block body is the whole-array layer's entry in the same row -/

/-- Over any operands: if the block index y and the array index i name the same column, row (y 0) of the two block
    operands is row (i 0) of the two whole arrays, and the matrices and bias rows are the same, then the block body at y
    is the whole-array layer at i. -/
theorem body2_entry (x0 x1 : Vec Ideal S5000x128 .f32) (x2 : Vec Ideal S128x128 .f32) (x3 : Vec Ideal S1x128 .f32)
    (x4 : Vec Ideal S128x128 .f32) (x5 : Vec Ideal S1x128 .f32)
    (H A : Cert.Spec.FArr Ideal S100000x128) (W1 : Cert.Spec.FArr Ideal S128x128) (R1 : Cert.Spec.FArr Ideal S1x128)
    (W2 : Cert.Spec.FArr Ideal S128x128) (R2 : Cert.Spec.FArr Ideal S1x128)
    (y : S5000x128.Idx) (i : S100000x128.Idx) (hq : (i 1).val = (y 1).val)
    (h0 : ∀ k : Fin 128, x0 (ix2 (y 0) k) = H (ix2 (i 0) k)) (h1 : ∀ k : Fin 128, x1 (ix2 (y 0) k) = A (ix2 (i 0) k))
    (e2 : x2 = W1) (e3 : x3 = R1) (e4 : x4 = W2) (e5 : x5 = R2) :
    k2_pay1 x0 x1 x2 x3 x4 x5 y = Cert.Spec.mlp (F := Ideal) H A W1 R1 W2 R2 i := by
  subst e2 e3 e4 e5
  have hi : ix2 (i 0) (y 1) = i := ((congrArg (ix2 (i 0)) (Fin.ext hq : i 1 = y 1)).symm).trans (eq_ix2 i).symm
  refine (congrArg (k2_pay1 x0 x1 x2 x3 x4 x5) (eq_ix2 y)).trans ?_
  refine (pay2_apply x0 x1 x2 x3 x4 x5 (y 0) (y 1)).trans ?_
  refine (entry_of_rows x0 x1 H A x2 x3 x4 x5 (y 0) (y 1) (i 0) h0 h1).trans ?_
  exact congrArg (Cert.Spec.mlp (F := Ideal) H A x2 x3 x4 x5) hi

/-! ## What a grid point writes back -/

/-- Point t writes back block t of the whole-array layer of the arrays as the region finds them. -/
theorem flushed2_eq (c : Dev nD) (t : Fin cfg2.N) :
    (dat2 (F := Ideal) V c).flushed 6 t
      = ((cfg2.win 6).blk t).view.read (Elt Ideal) (Cert.Spec.mlp (F := Ideal) (V c main_v29) (V c main_v39) (V c main_arg11) (V c main_v40) (V c main_arg13) (V c main_v41)) := by
  show (cfg2.win 6).cut (grid2.coords t) ((dat2 (F := Ideal) V c).after 6 t) = _
  rw [after2_6]
  unfold out2_6
  rw [View.canon_unit_zero zero_offsets2]
  simp only [View.ld_unit_zero (S := S5000x128) zero_offsets2, View.ld_unit_zero (S := S128x128) zero_offsets2,
    View.ld_unit_zero (S := S1x128) zero_offsets2]
  obtain ⟨e2, e3, e4, e5⟩ := weights_block2 V c t
  obtain ⟨f00, f01, f10, f11, f20, f21, f30, f31, f40, f41, f50, f51, f60, f61⟩ := block_indices2 t
  funext y
  show k2_pay1 (iblk2 V c 0 t) (iblk2 V c 1 t) (iblk2 V c 2 t) (iblk2 V c 3 t) (iblk2 V c 4 t) (iblk2 V c 5 t) y
    = Cert.Spec.mlp (F := Ideal) (V c main_v29) (V c main_v39) (V c main_arg11) (V c main_v40) (V c main_arg13) (V c main_v41) (((cfg2.win 6).blk t).view.emb y)
  have hy0 : (y 0).val < 5000 := (y 0).isLt
  have hy1 : (y 1).val < 128 := (y 1).isLt
  have hrow : ((((cfg2.win 6).blk t).view.emb y) 0).val = t.val * 5000 + (y 0).val := by
    show win2_6.index t (0 : Fin 2) * 5000 + 1 * (y 0).val = t.val * 5000 + (y 0).val
    rw [f60]; omega
  have hcol : ((((cfg2.win 6).blk t).view.emb y) 1).val = (y 1).val := by
    show win2_6.index t (1 : Fin 2) * 128 + 1 * (y 1).val = (y 1).val
    rw [f61]; omega
  exact body2_entry (iblk2 V c 0 t) (iblk2 V c 1 t) (iblk2 V c 2 t) (iblk2 V c 3 t) (iblk2 V c 4 t) (iblk2 V c 5 t)
    (V c main_v29) (V c main_v39) (V c main_arg11) (V c main_v40) (V c main_arg13) (V c main_v41) y (((cfg2.win 6).blk t).view.emb y) hcol
    (fun k => features_block2 V c t (y 0) k _ hrow) (fun k => sums_block2 V c t (y 0) k _ hrow) e2 e3 e4 e5

/-! ## The blocks tile the array -/

/-- An index of the result array is in point t's block iff each coordinate is in the block's range on its axis. -/
theorem mem_block2 (t : Fin cfg2.N) (i : S100000x128.Idx) :
    i ∈ ((cfg2.win 6).blk t).view.set
      ↔ ∀ a : Fin 2, win2_6.index t a * S5000x128.size a ≤ (i a).val
          ∧ (i a).val < win2_6.index t a * S5000x128.size a + S5000x128.size a := by
  show i ∈ ((View.whole main_v42).slice (win2_6.rect t)).set ↔ _
  rw [View.set_slice_whole, Rect.mem_set_unit]
  exact Iff.rfl

/-- Row r of the result lies in the block of point r / 5000, and every point writes its block back. -/
theorem covered2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨f00, f01, f10, f11, f20, f21, f30, f31, f40, f41, f50, f51, f60, f61⟩ := block_indices2 t
  refine ⟨t, flush2_6 t, ?_⟩
  rw [mem_block2]
  intro a
  match a with
  | ⟨0, _⟩ =>
    show win2_6.index t (0 : Fin 2) * 5000 ≤ (i 0).val ∧ (i 0).val < win2_6.index t (0 : Fin 2) * 5000 + 5000
    rw [f60, ht]; omega
  | ⟨1, _⟩ =>
    show win2_6.index t (1 : Fin 2) * 128 ≤ (i 1).val ∧ (i 1).val < win2_6.index t (1 : Fin 2) * 128 + 128
    rw [f61]; omega

/-! ## The result array after the region -/

/-- After the last point the third layer's result array is the whole-array layer of the arrays the region was entered with. -/
theorem layer2_value (c : Dev nD) :
    (dat2 (F := Ideal) V c).arrAt 6 cfg2.N = Cert.Spec.mlp (F := Ideal) (V c main_v29) (V c main_v39) (V c main_arg11) (V c main_v40) (V c main_arg13) (V c main_v41) :=
  (dat2 (F := Ideal) V c).arrAt_eq_of_cover 6 (Cert.Spec.mlp (F := Ideal) (V c main_v29) (V c main_v39) (V c main_arg11) (V c main_v40) (V c main_arg13) (V c main_v41))
    (fun t _ => flushed2_eq V c t) covered2

end Cert.KernelIdeal.Layers

end
-- ==== Proof.Head.lean ====
/-
  The head, computed on chip in one piece, is the head of the specification.

  The last on-chip region has a single grid point, and every one of its six windows is its whole array: the 64 pooled
  rows p [64, 128], the first weight matrix V1 [128, 128], the first bias as a row c1 [1, 128], the second weight
  matrix V2 [128, 64], the second bias as a row c2 [1, 64], and the result [64, 64]. Its body stores

      sigmoid (p · V1 + c1) · V2 + c2,

  the products accumulated into zero, the rows c1 and c2 laid over the 64 rows, and the operands of each product
  narrowed to a shorter format first, which changes nothing at the ideal values.

  Entry (i, j) of either spelling is
      sum over k of  logistic (sum over l of p (i, l) · V1 (l, k)  +  c1 (0, k)) · V2 (k, j)   +  c2 (0, j)
  (`headAt`): on chip because a product into the zero accumulator is the plain sum over the contraction position and
  the chip's sigmoid is the logistic function by definition; on the host because `dot_general` is the same sum and
  1 / (1 + exp (-x)), with 1 the word 0x3F800000, is the definition of the logistic function. No law of real arithmetic
  is used, so the equality holds at the infinities too. Then the one block that is written back is the whole result
  array, and it covers every index, so the result array ends holding the specification's head of the five input arrays
  as the region finds them.
-/
import proofs.«102653_j61186104099701_1_alg».proof.Proof.Spec
import proofs.«102653_j61186104099701_1_alg».proof.Proof.Gen.KernelIdeal.Frame
import proofs.«102653_j61186104099701_1_alg».proof.Proof.LibMatmulRows
import proofs.«102653_j61186104099701_1_alg».proof.Proof.LibRowReads
import Idealize.ShloMosaic.Lib.Pipeline.Value
import Idealize.ShloMosaic.Lib.ValueIdx
import Idealize.ShloMosaic.Lib.ValueLayout
import Idealize.ShloMosaic.PureOps.Ideal

noncomputable section

open scoped BigOperators
open Idealize.ShloMosaic Idealize.ShloMosaic.TcCoe Idealize.SL.Sem Idealize.ShloMosaic.ValueIdx
open Idealize.ShloMosaic.Pipeline (Dat)

namespace Cert.KernelIdeal.HeadValue

open Cert.KernelIdeal Cert.KernelIdeal.Gen

/-! ## The head, entry by entry -/

/-- Entry (i, k) of the hidden layer: the logistic function of row i of p against column k of V1, plus c1 at k. -/
def hiddenAt (x0 : Vec Ideal S64x128 .f32) (x1 : Vec Ideal S128x128 .f32) (x2 : Vec Ideal S1x128 .f32) (i : Fin 64)
    (k : Fin 128) : EReal :=
  Ideal.logistic ((∑ l : Fin 128, x0 (ix2 i l) * x1 (ix2 l k)) + x2 (ix2 (0 : Fin 1) k))

/-- Entry (i, j) of the head: row i of the hidden layer against column j of V2, plus c2 at j. It reads row i of p and
    nothing else of p. -/
def headAt (x0 : Vec Ideal S64x128 .f32) (x1 : Vec Ideal S128x128 .f32) (x2 : Vec Ideal S1x128 .f32)
    (x3 : Vec Ideal S128x64 .f32) (x4 : Vec Ideal S1x64 .f32) (i : Fin 64) (j : Fin 64) : EReal :=
  (∑ k : Fin 128, hiddenAt x0 x1 x2 i k * x3 (ix2 k j)) + x4 (ix2 (0 : Fin 1) j)

/-- The word 0x3F800000 is the number 1. -/
theorem one_word : Ideal.ofBits .f32 0x3F800000#32 = 1 := by
  simp [Ideal.ofBits, Ideal.ieee, -EReal.coe_mul]; norm_num

/-- A [1, N] row repeated down M rows by the host's broadcast reads, at (n, j), the row at j. -/
theorem rowDown_read {α : Type} {M N : Nat} (hN : N ≠ 1) (h2 : (⟨2, ![1, N]⟩ : Shape).BroadcastsInDim ⟨2, ![M, N]⟩ ![0, 1])
    (r : (⟨2, ![1, N]⟩ : Shape).Idx → α) (n : Fin M) (j : Fin N) :
    broadcastInDim ⟨2, ![M, N]⟩ ![0, 1] h2 r (ix2 n j) = r (ix2 (0 : Fin 1) j) := by
  refine broadcastInDim_apply ![0, 1] h2 r (ix2 n j) (ix2 (0 : Fin 1) j) (fun ax => ?_)
  match ax with
  | ⟨0, _⟩ => show (0 : Nat) = if (1 : Nat) = 1 then 0 else n.val; simp
  | ⟨1, _⟩ => show j.val = if N = 1 then 0 else j.val; rw [if_neg hN]

/-- The host's spelling 1 / (1 + exp (-x)) of the sigmoid, read at an index, is the logistic function there: that
    expression is the function's definition, and the two splat constants are 1. -/
theorem host_sigm_read {t : Shape} (h : (⟨0, ![]⟩ : Shape).BroadcastsInDim t ![]) (x : FVec Ideal t .f32) (i : t.Idx) :
    Host.divf (broadcastInDim t ![] h (constant (F := Ideal) ⟨0, ![]⟩ .f32 0x3F800000#32))
      (addf (broadcastInDim t ![] h (constant (F := Ideal) ⟨0, ![]⟩ .f32 0x3F800000#32)) (Host.exp (Host.negf x))) i
      = Ideal.logistic (x i) := by
  show Ideal.div (broadcastInDim t ![] h (constant (F := Ideal) ⟨0, ![]⟩ .f32 0x3F800000#32) i)
      (broadcastInDim t ![] h (constant (F := Ideal) ⟨0, ![]⟩ .f32 0x3F800000#32) i + Ideal.exp (-(x i))) = _
  rw [Cert.LibRowReads.splat_read, constant_apply, one_word]
  rfl

/-- The on-chip sigmoid followed by the narrowing of the format, read at an index, is the logistic function there. -/
theorem chip_sigm_read {t : Shape} (x : FVec Ideal t .f32) (h : FTy.bits .bf16 < FTy.bits .f32) (i : t.Idx) :
    (truncf .bf16 (logistic x) h : FVec Ideal t .bf16) i = Ideal.logistic (x i) := rfl

/-- What the body stores, at (i, j): both products are plain sums over the contraction position, each bias row is read
    at its column, the reshapes to the same shape and the narrowings are the identity. -/
theorem chip_at (x0 : Vec Ideal S64x128 .f32) (x1 : Vec Ideal S128x128 .f32) (x2 : Vec Ideal S1x128 .f32)
    (x3 : Vec Ideal S128x64 .f32) (x4 : Vec Ideal S1x64 .f32) (i : Fin 64) (j : Fin 64) :
    k3_pay1 x0 x1 x2 x3 x4 (ix2 i j) = headAt x0 x1 x2 x3 x4 i j := by
  unfold k3_pay1 headAt
  rw [addf_apply]
  refine congrArg₂ (· + ·) ?_ ?_
  · refine (Cert.Bridge.matmul_plain_zero_apply 64 128 64 none _ _ i j).trans ?_
    refine Finset.sum_congr rfl fun k _ => congrArg (· * x3 (ix2 k j)) ?_
    refine (chip_sigm_read _ _ (ix2 i k)).trans ?_
    unfold hiddenAt
    refine congrArg Ideal.logistic ?_
    rw [addf_apply]
    refine congrArg₂ (· + ·) ?_ ?_
    · refine (Cert.Bridge.matmul_plain_zero_apply 64 128 128 none _ _ i k).trans ?_
      rw [shapeCast_self]
      rfl
    · rw [shapeCast_self]
      exact broadcastTo_1b_ab_apply x2 _ i k
  · rw [shapeCast_self]
    exact broadcastTo_1b_ab_apply x4 _ i j

/-- The specification's head, at (i, j): the same two sums, the same rows, the same logistic function. -/
theorem host_at (x0 : Vec Ideal S64x128 .f32) (x1 : Vec Ideal S128x128 .f32) (x2 : Vec Ideal S1x128 .f32)
    (x3 : Vec Ideal S128x64 .f32) (x4 : Vec Ideal S1x64 .f32) (i : Fin 64) (j : Fin 64) :
    Cert.Spec.head (F := Ideal) x0 x1 x2 x3 x4 (ix2 i j) = headAt x0 x1 x2 x3 x4 i j := by
  unfold Cert.Spec.head headAt
  rw [addf_apply]
  refine congrArg₂ (· + ·) ?_ (rowDown_read (by decide) _ x4 i j)
  refine (Cert.Bridge.dotGeneral_plain_apply 64 128 64 none .single _ x3 i j).trans ?_
  refine Finset.sum_congr rfl fun k _ => congrArg (· * x3 (ix2 k j)) ?_
  refine (host_sigm_read _ _ (ix2 i k)).trans ?_
  unfold hiddenAt
  refine congrArg Ideal.logistic ?_
  rw [addf_apply]
  exact congrArg₂ (· + ·) (Cert.Bridge.dotGeneral_plain_apply 64 128 128 none .single x0 x1 i k) (rowDown_read (by decide) _ x2 i k)

/-- What the body stores is the specification's head of what it loaded, as whole [64, 64] arrays. -/
theorem stored_eq_head (x0 : Vec Ideal S64x128 .f32) (x1 : Vec Ideal S128x128 .f32) (x2 : Vec Ideal S1x128 .f32)
    (x3 : Vec Ideal S128x64 .f32) (x4 : Vec Ideal S1x64 .f32) :
    k3_pay1 x0 x1 x2 x3 x4 = Cert.Spec.head (F := Ideal) x0 x1 x2 x3 x4 := by
  funext y
  obtain ⟨i, j, rfl⟩ : ∃ (i : Fin 64) (j : Fin 64), y = ix2 i j := ⟨y 0, y 1, eq_ix2 y⟩
  exact (chip_at x0 x1 x2 x3 x4 i j).trans (host_at x0 x1 x2 x3 x4 i j).symm

/-! ## From the one block to the array -/

section Blocks

variable {F : FTy → Type} [FloatOps F]
variable (V : (c : Dev nD) → (b : Ref sig .tc) → Buf (Elt F) ((c : Thread nD τ).loc b))

/-- The offsets (0, 0), as the constant function. -/
theorem zeros2 : (![0, 0] : Fin 2 → Nat) = fun _ => 0 := funext fun a => by fin_cases a <;> rfl

/-- The block of the pooled rows at the one grid point is the whole [64, 128] array: its block offsets are all zero. -/
theorem pooled_block (c : Dev nD) (t : Fin cfg3.N) : iblk3 V c 0 t = V c main_v54 := by
  obtain rfl := fin_N3 t
  unfold iblk3
  have hz' : (fun a => win3_0.index t3_0 a * main_v54.ty.shape.size a) = fun _ => 0 := funext fun a => by fin_cases a <;> decide
  exact Memref.read_access_unit_zero (Elt F) main_v54 hz' (fun a => by rw [congrFun hz' a]; simp) _

/-- The block of the first weight matrix is the whole [128, 128] array. -/
theorem w1_block (c : Dev nD) (t : Fin cfg3.N) : iblk3 V c 1 t = V c main_arg15 := by
  obtain rfl := fin_N3 t
  unfold iblk3
  have hz' : (fun a => win3_1.index t3_0 a * main_arg15.ty.shape.size a) = fun _ => 0 := funext fun a => by fin_cases a <;> decide
  exact Memref.read_access_unit_zero (Elt F) main_arg15 hz' (fun a => by rw [congrFun hz' a]; simp) _

/-- The block of the first bias row is the whole [1, 128] array. -/
theorem r1_block (c : Dev nD) (t : Fin cfg3.N) : iblk3 V c 2 t = V c main_v55 := by
  obtain rfl := fin_N3 t
  unfold iblk3
  have hz' : (fun a => win3_2.index t3_0 a * main_v55.ty.shape.size a) = fun _ => 0 := funext fun a => by fin_cases a <;> decide
  exact Memref.read_access_unit_zero (Elt F) main_v55 hz' (fun a => by rw [congrFun hz' a]; simp) _

/-- The block of the second weight matrix is the whole [128, 64] array. -/
theorem w2_block (c : Dev nD) (t : Fin cfg3.N) : iblk3 V c 3 t = V c main_arg17 := by
  obtain rfl := fin_N3 t
  unfold iblk3
  have hz' : (fun a => win3_3.index t3_0 a * main_arg17.ty.shape.size a) = fun _ => 0 := funext fun a => by fin_cases a <;> decide
  exact Memref.read_access_unit_zero (Elt F) main_arg17 hz' (fun a => by rw [congrFun hz' a]; simp) _

/-- The block of the second bias row is the whole [1, 64] array. -/
theorem r2_block (c : Dev nD) (t : Fin cfg3.N) : iblk3 V c 4 t = V c main_v56 := by
  obtain rfl := fin_N3 t
  unfold iblk3
  have hz' : (fun a => win3_4.index t3_0 a * main_v56.ty.shape.size a) = fun _ => 0 := funext fun a => by fin_cases a <;> decide
  exact Memref.read_access_unit_zero (Elt F) main_v56 hz' (fun a => by rw [congrFun hz' a]; simp) _

/-- The result's block at the one grid point, read off any [64, 64] contents, is those contents. -/
theorem out_block (c : Dev nD) (t : Fin cfg3.N) (G : Buf (Elt F) ((c : Thread nD τ).loc main_v57)) :
    ((cfg3.win 5).blk t).view.read (Elt F) G = G := by
  obtain rfl := fin_N3 t
  have hz' : (fun a => win3_5.index t3_0 a * main_v57.ty.shape.size a) = fun _ => 0 := funext fun a => by fin_cases a <;> decide
  exact Memref.read_access_unit_zero (Elt F) main_v57 hz' (fun a => by rw [congrFun hz' a]; simp) G

/-- What the grid point writes back is the block of `G`, whenever `G` is what the body stores from the five whole
    input arrays: the body's one store fills its buffer, and each load reads a whole input block. -/
theorem written_back (c : Dev nD) (t : Fin cfg3.N) (G : Buf (Elt F) ((c : Thread nD τ).loc main_v57))
    (hG : k3_pay1 (V c main_v54) (V c main_arg15) (V c main_v55) (V c main_arg17) (V c main_v56) = G) :
    (dat3 V c).flushed 5 t = ((cfg3.win 5).blk t).view.read (Elt F) G := by
  rw [out_block]
  show (cfg3.win 5).cut (grid3.coords t) ((dat3 V c).after 5 t) = _
  rw [after3_5]
  unfold out3_5
  rw [View.canon_unit_zero zeros2]
  simp only [View.ld_unit_zero (S := S64x128) zeros2, View.ld_unit_zero (S := S128x128) zeros2,
    View.ld_unit_zero (S := S1x128) zeros2, View.ld_unit_zero (S := S128x64) zeros2, View.ld_unit_zero (S := S1x64) zeros2]
  rw [pooled_block, w1_block, r1_block, w2_block, r2_block]
  exact hG

/-- The result array after the region is `G`: the one grid point's block covers every index (i, j), both below 64. -/
theorem array_after (c : Dev nD) (G : Buf (Elt F) ((c : Thread nD τ).loc main_v57))
    (hG : k3_pay1 (V c main_v54) (V c main_arg15) (V c main_v55) (V c main_arg17) (V c main_v56) = G) :
    (dat3 V c).arrAt 5 cfg3.N = G :=
  (dat3 V c).arrAt_eq_of_cover 5 G (fun t _ => written_back V c t G hG) fun i =>
    ⟨t3_0, flush3_5 t3_0, by
      show i ∈ ((View.whole main_v57).slice (win3_5.rect t3_0)).set
      rw [View.set_slice_whole, Rect.mem_set_unit]
      intro a
      have h0 : (i 0 : Nat) < 64 := (i 0).isLt
      have h1 : (i 1 : Nat) < 64 := (i 1).isLt
      match a with
      | ⟨0, _⟩ => show win3_5.index t3_0 0 * win3_5.size 0 ≤ (i 0 : Nat) ∧ (i 0 : Nat) < win3_5.index t3_0 0 * win3_5.size 0 + win3_5.xsize (grid3.coords t3_0) 0
                  rw [show win3_5.index t3_0 0 * win3_5.size 0 = 0 from by decide +kernel, show win3_5.xsize (grid3.coords t3_0) 0 = 64 from by decide +kernel]; omega
      | ⟨1, _⟩ => show win3_5.index t3_0 1 * win3_5.size 1 ≤ (i 1 : Nat) ∧ (i 1 : Nat) < win3_5.index t3_0 1 * win3_5.size 1 + win3_5.xsize (grid3.coords t3_0) 1
                  rw [show win3_5.index t3_0 1 * win3_5.size 1 = 0 from by decide +kernel, show win3_5.xsize (grid3.coords t3_0) 1 = 64 from by decide +kernel]; omega⟩

end Blocks

/-! ## The region's value -/

/-- After the last on-chip region the result array holds the specification's head of the pooled rows, the two weight
    matrices and the two bias rows as the region finds them. -/
theorem head_value (V : (c : Dev nD) → (b : Ref sig .tc) → Buf (Elt Ideal) ((c : Thread nD τ).loc b)) (c : Dev nD) :
    (dat3 (F := Ideal) V c).arrAt 5 cfg3.N
      = Cert.Spec.head (F := Ideal) (V c main_v54) (V c main_arg15) (V c main_v55) (V c main_arg17) (V c main_v56) :=
  array_after V c _ (stored_eq_head _ _ _ _ _)

end Cert.KernelIdeal.HeadValue

end
-- ==== Proof.Chain.lean ====
/-
  The idealized kernel program's result, read through its eight segments, is the specification's network.

  The program's buffer contents at its segment boundaries are a fold from the launch memory. Read forwards: the first
  stretch cuts the edge list into its source and destination vectors and forms the neighbour sums of the launch features;
  region 0 turns features and sums into the first layer's features; the second and third stretches and regions do the
  same from the previous layer's output, reading the two edge vectors the first stretch left; the last stretch averages
  the third layer's features over each graph; region 3 applies the head. A weight or bias array is read where it is
  first used, and until then it holds its launch contents, since no stretch before writes it and it is no array of a
  region before. The bias rows reach the regions reshaped, the specification's layers broadcast them: one array.
-/
import proofs.«102653_j61186104099701_1_alg».proof.Proof.Gen.KernelIdeal.Frame
import proofs.«102653_j61186104099701_1_alg».proof.Proof.Spec
import proofs.«102653_j61186104099701_1_alg».proof.Proof.RowForms
import proofs.«102653_j61186104099701_1_alg».proof.Proof.Stretch
import proofs.«102653_j61186104099701_1_alg».proof.Proof.Layer0
import proofs.«102653_j61186104099701_1_alg».proof.Proof.Layer1
import proofs.«102653_j61186104099701_1_alg».proof.Proof.Layer2
import proofs.«102653_j61186104099701_1_alg».proof.Proof.Head
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## A buffer nothing has written yet still holds its launch contents

Boundary J's contents at a buffer that no stretch before it writes and that is no array of a region before it are the
launch contents: one step back per segment. -/

theorem W1_thru (b : Ref sig .tc) (h0 : b ∉ Stretch.written0) :
    W1 m ρ c (Proc.devRef .tc b) = m ((c : Thread nD τ).loc b) :=
  Stretch.stretch0_keep (W0 m ρ c) b h0

theorem W2_thru (b : Ref sig .tc) (h0 : b ∉ Stretch.written0) (r0 : ∀ w, Pipeline.arrRef spec0 w ≠ b) :
    W2 m ρ c (Proc.devRef .tc b) = m ((c : Thread nD τ).loc b) :=
  (W2_of_ne m ρ c b r0).trans (W1_thru m ρ c b h0)

theorem W3_thru (b : Ref sig .tc) (h0 : b ∉ Stretch.written0) (r0 : ∀ w, Pipeline.arrRef spec0 w ≠ b) (h1 : b ∉ Stretch.written1) :
    W3 m ρ c (Proc.devRef .tc b) = m ((c : Thread nD τ).loc b) :=
  (Stretch.stretch1_keep (W2 m ρ c) b h1).trans (W2_thru m ρ c b h0 r0)

theorem W4_thru (b : Ref sig .tc) (h0 : b ∉ Stretch.written0) (r0 : ∀ w, Pipeline.arrRef spec0 w ≠ b) (h1 : b ∉ Stretch.written1)
    (r1 : ∀ w, Pipeline.arrRef spec1 w ≠ b) : W4 m ρ c (Proc.devRef .tc b) = m ((c : Thread nD τ).loc b) :=
  (W4_of_ne m ρ c b r1).trans (W3_thru m ρ c b h0 r0 h1)

theorem W5_thru (b : Ref sig .tc) (h0 : b ∉ Stretch.written0) (r0 : ∀ w, Pipeline.arrRef spec0 w ≠ b) (h1 : b ∉ Stretch.written1)
    (r1 : ∀ w, Pipeline.arrRef spec1 w ≠ b) (h2 : b ∉ Stretch.written2) : W5 m ρ c (Proc.devRef .tc b) = m ((c : Thread nD τ).loc b) :=
  (Stretch.stretch2_keep (W4 m ρ c) b h2).trans (W4_thru m ρ c b h0 r0 h1 r1)

theorem W6_thru (b : Ref sig .tc) (h0 : b ∉ Stretch.written0) (r0 : ∀ w, Pipeline.arrRef spec0 w ≠ b) (h1 : b ∉ Stretch.written1)
    (r1 : ∀ w, Pipeline.arrRef spec1 w ≠ b) (h2 : b ∉ Stretch.written2) (r2 : ∀ w, Pipeline.arrRef spec2 w ≠ b) :
    W6 m ρ c (Proc.devRef .tc b) = m ((c : Thread nD τ).loc b) :=
  (W6_of_ne m ρ c b r2).trans (W5_thru m ρ c b h0 r0 h1 r1 h2)

theorem W7_thru (b : Ref sig .tc) (h0 : b ∉ Stretch.written0) (r0 : ∀ w, Pipeline.arrRef spec0 w ≠ b) (h1 : b ∉ Stretch.written1)
    (r1 : ∀ w, Pipeline.arrRef spec1 w ≠ b) (h2 : b ∉ Stretch.written2) (r2 : ∀ w, Pipeline.arrRef spec2 w ≠ b) (h3 : b ∉ Stretch.written3) :
    W7 m ρ c (Proc.devRef .tc b) = m ((c : Thread nD τ).loc b) :=
  (Stretch.stretch3_keep (W6 m ρ c) b h3).trans (W6_thru m ρ c b h0 r0 h1 r1 h2 r2)

/-! ## The edge list's two rows, computed once by the first stretch and read by the next two -/

/-- The source-node vector of the launch edge list. -/
def src : Cert.Spec.IArr Ideal Cert.ReferenceIdeal.S1600000 := Cert.Spec.srcRaw (F := Ideal) (m ((c : Thread nD τ).loc main_arg1))
/-- The destination-node vector of the launch edge list. -/
def dst : Cert.Spec.IArr Ideal Cert.ReferenceIdeal.S1600000 := Cert.Spec.dstRaw (F := Ideal) (m ((c : Thread nD τ).loc main_arg1))

theorem W1_v1 : W1 m ρ c (Proc.devRef .tc main_v1) = src m c := Stretch.stretch0_v1 (W0 m ρ c)
theorem W1_v3 : W1 m ρ c (Proc.devRef .tc main_v3) = dst m c := Stretch.stretch0_v3 (W0 m ρ c)
theorem W2_v1 : W2 m ρ c (Proc.devRef .tc main_v1) = src m c := (W2_of_ne m ρ c main_v1 (by decide)).trans (W1_v1 m ρ c)
theorem W2_v3 : W2 m ρ c (Proc.devRef .tc main_v3) = dst m c := (W2_of_ne m ρ c main_v3 (by decide)).trans (W1_v3 m ρ c)
theorem W4_v1 : W4 m ρ c (Proc.devRef .tc main_v1) = src m c :=
  (W4_of_ne m ρ c main_v1 (by decide)).trans ((Stretch.stretch1_keep (W2 m ρ c) main_v1 (by decide)).trans (W2_v1 m ρ c))
theorem W4_v3 : W4 m ρ c (Proc.devRef .tc main_v3) = dst m c :=
  (W4_of_ne m ρ c main_v3 (by decide)).trans ((Stretch.stretch1_keep (W2 m ρ c) main_v3 (by decide)).trans (W2_v3 m ρ c))

/-! ## The node features after each layer -/

/-- The node features after the first layer, as the specification's function of the launch arrays. -/
def feat1 : Cert.Spec.FArr Ideal Cert.ReferenceIdeal.S100000x128 :=
  Cert.Spec.layer (F := Ideal) (m ((c : Thread nD τ).loc main_arg0)) (src m c) (dst m c) (m ((c : Thread nD τ).loc main_arg3)) (m ((c : Thread nD τ).loc main_arg4)) (m ((c : Thread nD τ).loc main_arg5)) (m ((c : Thread nD τ).loc main_arg6))
/-- The node features after the second layer. -/
def feat2 : Cert.Spec.FArr Ideal Cert.ReferenceIdeal.S100000x128 :=
  Cert.Spec.layer (F := Ideal) (feat1 m c) (src m c) (dst m c) (m ((c : Thread nD τ).loc main_arg7)) (m ((c : Thread nD τ).loc main_arg8)) (m ((c : Thread nD τ).loc main_arg9)) (m ((c : Thread nD τ).loc main_arg10))
/-- The node features after the third layer. -/
def feat3 : Cert.Spec.FArr Ideal Cert.ReferenceIdeal.S100000x128 :=
  Cert.Spec.layer (F := Ideal) (feat2 m c) (src m c) (dst m c) (m ((c : Thread nD τ).loc main_arg11)) (m ((c : Thread nD τ).loc main_arg12)) (m ((c : Thread nD τ).loc main_arg13)) (m ((c : Thread nD τ).loc main_arg14))

/-- Region 0 leaves the first layer's features in its output array: its inputs are the launch features, their neighbour
    sums from the first stretch, and the layer's weights and bias rows. -/
theorem W2_v16 : W2 m ρ c (Proc.devRef .tc main_v16) = feat1 m c := by
  refine (W2_arr m ρ c 6).trans ((Layers.layer0_value (V1 m ρ) c).trans ?_)
  show Cert.Spec.mlp (F := Ideal) (W1 m ρ c (Proc.devRef .tc main_arg0)) (W1 m ρ c (Proc.devRef .tc main_v13)) (W1 m ρ c (Proc.devRef .tc main_arg3))
    (W1 m ρ c (Proc.devRef .tc main_v14)) (W1 m ρ c (Proc.devRef .tc main_arg5)) (W1 m ρ c (Proc.devRef .tc main_v15)) = _
  rw [W1_thru m ρ c main_arg0 (by decide), W1_thru m ρ c main_arg3 (by decide), W1_thru m ρ c main_arg5 (by decide),
    show W1 m ρ c (Proc.devRef .tc main_v13) = _ from Stretch.stretch0_v13 (W0 m ρ c),
    show W1 m ρ c (Proc.devRef .tc main_v14) = _ from Stretch.stretch0_v14 (W0 m ρ c),
    show W1 m ρ c (Proc.devRef .tc main_v15) = _ from Stretch.stretch0_v15 (W0 m ρ c),
    Cert.Spec.asRow128_eq, Cert.Spec.asRow128_eq]
  rfl

/-- Region 1 leaves the second layer's features in its output array. -/
theorem W4_v29 : W4 m ρ c (Proc.devRef .tc main_v29) = feat2 m c := by
  refine (W4_arr m ρ c 6).trans ((Layers.layer1_value (V3 m ρ) c).trans ?_)
  show Cert.Spec.mlp (F := Ideal) (W3 m ρ c (Proc.devRef .tc main_v16)) (W3 m ρ c (Proc.devRef .tc main_v26)) (W3 m ρ c (Proc.devRef .tc main_arg7))
    (W3 m ρ c (Proc.devRef .tc main_v27)) (W3 m ρ c (Proc.devRef .tc main_arg9)) (W3 m ρ c (Proc.devRef .tc main_v28)) = _
  rw [show W3 m ρ c (Proc.devRef .tc main_v16) = _ from Stretch.stretch1_keep (W2 m ρ c) main_v16 (by decide),
    W3_thru m ρ c main_arg7 (by decide) (by decide) (by decide), W3_thru m ρ c main_arg9 (by decide) (by decide) (by decide),
    show W3 m ρ c (Proc.devRef .tc main_v26) = _ from Stretch.stretch1_v26 (W2 m ρ c),
    show W3 m ρ c (Proc.devRef .tc main_v27) = _ from Stretch.stretch1_v27 (W2 m ρ c),
    show W3 m ρ c (Proc.devRef .tc main_v28) = _ from Stretch.stretch1_v28 (W2 m ρ c),
    W2_v16, W2_v1, W2_v3, W2_thru m ρ c main_arg8 (by decide) (by decide), W2_thru m ρ c main_arg10 (by decide) (by decide),
    Cert.Spec.asRow128_eq, Cert.Spec.asRow128_eq]
  rfl

/-- Region 2 leaves the third layer's features in its output array. -/
theorem W6_v42 : W6 m ρ c (Proc.devRef .tc main_v42) = feat3 m c := by
  refine (W6_arr m ρ c 6).trans ((Layers.layer2_value (V5 m ρ) c).trans ?_)
  show Cert.Spec.mlp (F := Ideal) (W5 m ρ c (Proc.devRef .tc main_v29)) (W5 m ρ c (Proc.devRef .tc main_v39)) (W5 m ρ c (Proc.devRef .tc main_arg11))
    (W5 m ρ c (Proc.devRef .tc main_v40)) (W5 m ρ c (Proc.devRef .tc main_arg13)) (W5 m ρ c (Proc.devRef .tc main_v41)) = _
  rw [show W5 m ρ c (Proc.devRef .tc main_v29) = _ from Stretch.stretch2_keep (W4 m ρ c) main_v29 (by decide),
    W5_thru m ρ c main_arg11 (by decide) (by decide) (by decide) (by decide) (by decide),
    W5_thru m ρ c main_arg13 (by decide) (by decide) (by decide) (by decide) (by decide),
    show W5 m ρ c (Proc.devRef .tc main_v39) = _ from Stretch.stretch2_v39 (W4 m ρ c),
    show W5 m ρ c (Proc.devRef .tc main_v40) = _ from Stretch.stretch2_v40 (W4 m ρ c),
    show W5 m ρ c (Proc.devRef .tc main_v41) = _ from Stretch.stretch2_v41 (W4 m ρ c),
    W4_v29, W4_v1, W4_v3, W4_thru m ρ c main_arg12 (by decide) (by decide) (by decide) (by decide),
    W4_thru m ρ c main_arg14 (by decide) (by decide) (by decide) (by decide),
    Cert.Spec.asRow128_eq, Cert.Spec.asRow128_eq]
  rfl

/-! ## The result -/

/-- The program's result buffer at the last boundary is the specification's network of the launch arrays: the last
    region's output is the head of what the last stretch pooled from the third layer's features. -/
theorem result_is_out : W8 m ρ c (Proc.devRef .tc main_v57)
    = Cert.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17)) (m ((c : Thread nD τ).loc main_arg18)) := by
  refine (W8_arr m ρ c 5).trans ((HeadValue.head_value (V7 m ρ) c).trans ?_)
  show Cert.Spec.head (F := Ideal) (W7 m ρ c (Proc.devRef .tc main_v54)) (W7 m ρ c (Proc.devRef .tc main_arg15)) (W7 m ρ c (Proc.devRef .tc main_v55))
    (W7 m ρ c (Proc.devRef .tc main_arg17)) (W7 m ρ c (Proc.devRef .tc main_v56)) = _
  rw [W7_thru m ρ c main_arg15 (by decide) (by decide) (by decide) (by decide) (by decide) (by decide) (by decide),
    W7_thru m ρ c main_arg17 (by decide) (by decide) (by decide) (by decide) (by decide) (by decide) (by decide),
    show W7 m ρ c (Proc.devRef .tc main_v54) = _ from Stretch.stretch3_v54 (W6 m ρ c),
    show W7 m ρ c (Proc.devRef .tc main_v55) = _ from Stretch.stretch3_v55 (W6 m ρ c),
    show W7 m ρ c (Proc.devRef .tc main_v56) = _ from Stretch.stretch3_v56 (W6 m ρ c),
    W6_v42, W6_thru m ρ c main_arg2 (by decide) (by decide) (by decide) (by decide) (by decide) (by decide),
    W6_thru m ρ c main_arg16 (by decide) (by decide) (by decide) (by decide) (by decide) (by decide),
    W6_thru m ρ c main_arg18 (by decide) (by decide) (by decide) (by decide) (by decide) (by decide),
    Cert.Spec.asRow128_eq, Cert.Spec.asRow64_eq]
  rfl

end Cert.KernelIdeal.Chain

end
-- ==== Proof.Ref.lean ====
/-
  The reference program's result is the network of the specification: its run states the result buffer at the host
  operations' composed term of the argument arrays, and that term is the specification's composition, operation by
  operation (three layers, the mean over each graph, the head).
-/
import proofs.«102653_j61186104099701_1_alg».proof.Proof.Gen.ReferenceIdeal.Run
import proofs.«102653_j61186104099701_1_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

set_option maxRecDepth 16384 in
/-- The composed term of the reference's 135 host operations is the specification's network of the argument arrays. -/
theorem result_is_out (m : (ℓ : Loc nD τ sig) → Buf (Elt F) ℓ) (c : Dev nD) :
    res_main_v107 (F := F) m c
      = Cert.Spec.out (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) (m ((c.tc : Thread nD τ).loc main_arg18)) := by
  unfold res_main_v107
  rfl

end Cert.ReferenceIdeal.RefValue

end
-- ==== Proof.lean ====
/-
  The certificate: a three-layer graph network with a per-graph mean and a two-layer head, computed by a program of four
  Pallas regions among host gathers and scatter-adds, against its jnp reference.

  Both programs compute, at the ideal values, the one network of Proof/Spec.lean. On the reference's side that is the
  reading of its run's composed term (Proof/Ref.lean). On the kernel program's side the dense part of each layer is
  computed 5000 rows at a time: an entry of sigmoid((h + a)·W1 + b1)·W2 + b2 depends only on its own row of h + a, so the
  blocks are the rows of the whole-array layer (Proof/Layer0.lean … Layer2.lean), and the head's one block is its whole
  array (Proof/Head.lean); a matrix product into a zero accumulator and the host's dot_general are the same sum, the
  narrowing to bf16 changes nothing at the ideal values, and the on-chip logistic is by definition 1/(1 + exp(-x)), the
  host's spelling. The stretches of host operations between the regions are the same operations in both programs
  (Proof/Stretch.lean), and the segments compose to the network (Proof/Chain.lean). No step uses a law that fails at an
  infinity, so the inputs' finiteness is not used. The ideal pass rewrote nothing, so the kernel program's
  idealization is its own text and the preservation claim is empty; the three frames are the generated frame
  certificates and the reference's run.
-/
import proofs.«102653_j61186104099701_1_alg».proof.Defs
import proofs.«102653_j61186104099701_1_alg».proof.Proof.Gen.Kernel
import proofs.«102653_j61186104099701_1_alg».proof.Proof.Gen.Kernel.Skeleton
import proofs.«102653_j61186104099701_1_alg».proof.Proof.Gen.Kernel.Launch
import proofs.«102653_j61186104099701_1_alg».proof.Proof.Gen.Kernel.Points
import proofs.«102653_j61186104099701_1_alg».proof.Proof.Gen.Kernel.Frame
import proofs.«102653_j61186104099701_1_alg».proof.Proof.Gen.KernelIdeal
import proofs.«102653_j61186104099701_1_alg».proof.Proof.Gen.KernelIdeal.Skeleton
import proofs.«102653_j61186104099701_1_alg».proof.Proof.Gen.KernelIdeal.Launch
import proofs.«102653_j61186104099701_1_alg».proof.Proof.Gen.KernelIdeal.Points
import proofs.«102653_j61186104099701_1_alg».proof.Proof.Gen.KernelIdeal.Frame
import proofs.«102653_j61186104099701_1_alg».proof.Proof.Gen.ReferenceIdeal
import proofs.«102653_j61186104099701_1_alg».proof.Proof.Gen.ReferenceIdeal.Run
import proofs.«102653_j61186104099701_1_alg».proof.Proof.Gen.Pre_finite_inputs
import proofs.«102653_j61186104099701_1_alg».proof.Proof.KRun
import proofs.«102653_j61186104099701_1_alg».proof.Proof.Chain
import proofs.«102653_j61186104099701_1_alg».proof.Proof.Ref
import Idealize.ShloMosaic.Adequacy
import Idealize.ShloMosaic.Init

noncomputable section

namespace Cert.Proof

open Idealize.ShloMosaic Idealize.ShloMosaic.TcCoe Idealize.SL.Sem

namespace Claims

/-- The word-level program runs and leaves its arguments as launched: the generated frame certificate. -/
theorem frame_k : Cert.frame_Kernel := fun m ρ _ => Cert.Kernel.Gen.frame m ρ

/-- The idealized program runs and leaves its arguments as launched: the generated frame certificate. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the nineteen arguments both programs end with the specification's network of those
    arguments in their result buffers, and with the arguments unchanged. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun _ h c => ⟨(h c).1.trans (Cert.KernelIdeal.Chain.result_is_out m ρ c), (h c).2⟩)
      (Cert.KernelIdeal.Run.run_value (F := Ideal) m ρ)
  · refine (θ_run Cert.ReferenceIdeal.defs _ _).mono (fun _ h c => ⟨?_, (h c).2⟩)
      (Cert.ReferenceIdeal.Value.run (F := Ideal) m' ρ')
    refine ((h c).1.trans (Cert.ReferenceIdeal.RefValue.result_is_out m' c)).trans ?_
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
